-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S800000 : Shape := ⟨1, ![800000]⟩
abbrev S1024x128 : Shape := ⟨2, ![1024, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg20 : FVec F S2 .f32) (main_v83 : IVec S_ 1) (main_v84 : FVec F S128x2 .f32) (main_cst_32 : FVec F S_ .f32) : IVec S_ 1 :=
  let main_v85 : FVec F S128x2 .f32 := broadcastInDim S128x2 ![] bcast_S_S128x2 main_cst_32
  let main_v86 : IVec S128x2 1 := cmpf .olt main_v84 main_v85
  let main_c_33 : IVec S_ 1 := constantI S_ 1 1#1
  let main_v87 : IVec S_ 1 := (fun x v => Host.reduce IntOp.andi x v reducesTo_S128x2_S_d0_1 h_S_) main_v86 main_c_33
  let main_v88 : IVec S_ 1 := andi main_v83 main_v87
  let main_v89 : FVec F S2 .f32 := Host.absf main_arg20
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg16 : FVec F S128 .f32) (main_arg17 : FVec F S128 .f32) (main_arg18 : FVec F S128 .f32) (main_arg19 : FVec F S128x2 .f32) (main_arg20 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x2 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x2 .f32) (main_arg20 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x2 .f32) (main_arg20 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x2 .f32) (main_arg20 : FVec F S2 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x1024 .f32) (main_arg1 : IVec S800000 32) (main_arg2 : IVec S800000 32) (main_arg3 : FVec F S1024x128 .f32) (main_arg4 : FVec F S128 .f32) (main_arg5 : FVec F S1024x128 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x2 .f32) (main_arg20 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x128 .f32 := Host.absf main_arg3
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg5
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x1024 : Shape := ⟨2, ![50000, 1024]⟩
abbrev S800000 : Shape := ⟨1, ![800000]⟩
abbrev S1024x128 : Shape := ⟨2, ![1024, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x128 : Shape := ⟨2, ![1, 128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x2 : Shape := ⟨2, ![1, 2]⟩
abbrev S50000x2 : Shape := ⟨2, ![50000, 2]⟩
abbrev S2000x1024 : Shape := ⟨2, ![2000, 1024]⟩
abbrev S2000x128 : Shape := ⟨2, ![2000, 128]⟩
abbrev S2000x2 : Shape := ⟨2, ![2000, 2]⟩
abbrev S2000 : Shape := ⟨1, ![2000]⟩
abbrev S2000x1 : Shape := ⟨2, ![2000, 1]⟩

abbrev nBuf : Space → Nat
  | .hbm => 68
  | .vmem => 42
  | .smem => 0
  | _ => 0

abbrev bufTy : (tb : Table) → Fin (tcTables nBuf tb) → BufTy
  | .hbm, ⟨0, _⟩ => ⟨S50000x1024, .f32⟩
  | .hbm, ⟨1, _⟩ => ⟨S800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x2, .f32⟩
  | .hbm, ⟨20, _⟩ => ⟨S2, .f32⟩
  | .hbm, ⟨21, _⟩ => ⟨S1x128, .f32⟩
  | .hbm, ⟨22, _⟩ => ⟨S50000x128, .bf16⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .bf16⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S50000x128, .bf16⟩
  | .hbm, ⟨44, _⟩ => ⟨S1x128, .f32⟩
  | .hbm, ⟨45, _⟩ => ⟨S50000x128, .bf16⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x2, .f32⟩
  | .hbm, ⟨67, _⟩ => ⟨S50000x2, .f32⟩
  | .local _ .vmem, ⟨0, _⟩ => ⟨S2000x1024, .f32⟩
  | .local _ .vmem, ⟨1, _⟩ => ⟨S2000x1024, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x2, .f32⟩
  | .local _ .vmem, ⟨39, _⟩ => ⟨S1x2, .f32⟩
  | .local _ .vmem, ⟨40, _⟩ => ⟨S2000x2, .f32⟩
  | .local _ .vmem, ⟨41, _⟩ => ⟨S2000x2, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1_0 : Ref sig .tc := ⟨.hbm, 22, rfl⟩
abbrev main_call0_v1_1 : Ref sig .tc := ⟨.hbm, 23, rfl⟩
abbrev main_call0_c : Ref sig .tc := ⟨.hbm, 24, rfl⟩
abbrev main_call0_v2 : Ref sig .tc := ⟨.hbm, 25, rfl⟩
abbrev main_call0_v3 : Ref sig .tc := ⟨.hbm, 26, rfl⟩
abbrev main_call0_c_0 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_cst : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20_0 : Ref sig .tc := ⟨.hbm, 45, rfl⟩
abbrev main_call0_v20_1 : Ref sig .tc := ⟨.hbm, 46, rfl⟩
abbrev main_call0_c_1 : Ref sig .tc := ⟨.hbm, 47, rfl⟩
abbrev main_call0_v21 : Ref sig .tc := ⟨.hbm, 48, rfl⟩
abbrev main_call0_v22 : Ref sig .tc := ⟨.hbm, 49, rfl⟩
abbrev main_call0_c_2 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_cst_3 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_v32 : Ref sig .tc := ⟨.hbm, 61, rfl⟩
abbrev main_call0_v33 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_v0 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x2 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  shapeCasts_S2_S1x2 : S2.ShapeCasts S1x2
  inb_S2000x1024_S2000x1024_0_0 : ∀ a, (![0, 0] : Fin 2 → Nat) a + S2000x1024.size a ≤ S2000x1024.size a
  h_S2000x1024 : 0 < S2000x1024.numel
  inb_S1024x128_S1024x128_0_0 : ∀ a, (![0, 0] : Fin 2 → Nat) a + S1024x128.size a ≤ S1024x128.size a
  h_S1024x128 : 0 < S1024x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x1024_S1024x128_S2000x128_1_0_0_1_n_n_wf : DotDims.WF S2000x1024 S1024x128 S2000x128 [1] [0] [0] [1] [] []
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .bf16 = 32 ∨ (Rect.block (s := S50000x128) S2000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x2.size a ≤ S128x2.size a
  hwx3_7 : ∀ i : grid3.Coords, EltTy.bits .f32 = 32 ∨ (Rect.block (s := S128x2) S128x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2.size a ≤ S1x2.size a
  hwx3_8 : ∀ i : grid3.Coords, EltTy.bits .f32 = 32 ∨ (Rect.block (s := S1x2) S1x2.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x2.size a ≤ S50000x2.size a
  hwx3_9 : ∀ i : grid3.Coords, EltTy.bits .f32 = 32 ∨ (Rect.block (s := S50000x2) S2000x2.size (cc3_transform_9 i) (hinb3_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1_1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v18) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v20_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v20_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v20_1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v31) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v32) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v35) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v36) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S128x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v37) S1x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v0) S2000x2.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x1024 : Shape := ⟨2, ![50000, 1024]⟩
abbrev S800000 : Shape := ⟨1, ![800000]⟩
abbrev S1024x128 : Shape := ⟨2, ![1024, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x2 : Shape := ⟨2, ![50000, 2]⟩
abbrev S1x2 : Shape := ⟨2, ![1, 2]⟩
abbrev S50000 : Shape := ⟨1, ![50000]⟩
abbrev S50000x1 : Shape := ⟨2, ![50000, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x2, .f32⟩
  | .hbm, ⟨20, _⟩ => ⟨S2, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x2, .f32⟩
  | .hbm, ⟨110, _⟩ => ⟨S1x2, .f32⟩
  | .hbm, ⟨111, _⟩ => ⟨S50000x2, .f32⟩
  | .hbm, ⟨112, _⟩ => ⟨S50000x2, .f32⟩
  | .hbm, ⟨113, _⟩ => ⟨S_, .f32⟩
  | .hbm, ⟨114, _⟩ => ⟨S50000, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000x1, .f32⟩
  | .hbm, ⟨119, _⟩ => ⟨S50000x2, .f32⟩
  | .hbm, ⟨120, _⟩ => ⟨S50000x2, .f32⟩
  | .hbm, ⟨121, _⟩ => ⟨S50000x2, .f32⟩
  | .hbm, ⟨122, _⟩ => ⟨S_, .f32⟩
  | .hbm, ⟨123, _⟩ => ⟨S50000, .f32⟩
  | .hbm, ⟨124, _⟩ => ⟨S50000x1, .f32⟩
  | .hbm, ⟨125, _⟩ => ⟨S50000x2, .f32⟩
  | .hbm, ⟨126, _⟩ => ⟨S50000x2, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call0_cst : Ref sig .tc := ⟨.hbm, 38, rfl⟩
abbrev main_call0_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call1_cst : Ref sig .tc := ⟨.hbm, 45, rfl⟩
abbrev main_call1_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_2 : Ref sig .tc := ⟨.hbm, 66, rfl⟩
abbrev main_v37 : Ref sig .tc := ⟨.hbm, 67, rfl⟩
abbrev main_v38 : Ref sig .tc := ⟨.hbm, 68, rfl⟩
abbrev main_c_3 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call2_cst : Ref sig .tc := ⟨.hbm, 82, rfl⟩
abbrev main_call2_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call3_cst : Ref sig .tc := ⟨.hbm, 89, rfl⟩
abbrev main_call3_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_5 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_6 : Ref sig .tc := ⟨.hbm, 113, rfl⟩
abbrev main_v76 : Ref sig .tc := ⟨.hbm, 114, rfl⟩
abbrev main_cst_7 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_8 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x1024_S1024x128_S50000x128_1_0_0_1_n_n_wf : DotDims.WF S50000x1024 S1024x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«170640_j80590766342785_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«170640_j80590766342785_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«170640_j80590766342785_2_alg».proof.Proof.LibKeepdims
import proofs.«170640_j80590766342785_2_alg».proof.Proof.LibSoftmaxRows
import proofs.«170640_j80590766342785_2_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.LibGraphConvSpec.lean ====
/-
  The graph-convolution network both programs compute, as functions of whole arrays of extended reals.

  A layer takes node features x (one row per node), sends every node's projected row (x · W) along the edges and
  adds what arrives at each node (the aggregate), and joins it with a residual branch:
      out = ((max (agg + b) 0 + max (x · Wr + br) 0) - mean) · rsqrt (var + eps) · gamma + beta,
  every vector of the right-hand side (b, br, mean, var, gamma, beta) a row repeated over the nodes.  Two layers are
  followed by a classifier (h · Wd + bd) and a softmax over each node's row of logits.

  Stated here are the pieces that do not look at the edges: the matrix product as a finite sum, the residual branch,
  the join, the classifier and the row softmax.  Each is given at a pair of coordinates (`…At`) and as the array
  `fun i => …At (i 0) (i 1)`.
-/
import Idealize.ShloMosaic.PureOps.Ideal.Laws
import Idealize.ShloMosaic.Lib.ValueIdx
import proofs.«170640_j80590766342785_2_alg».proof.Proof.LibSoftmaxRows

noncomputable section

open scoped BigOperators

namespace Cert.Gcn

open Idealize.ShloMosaic Idealize.ShloMosaic.ValueIdx

/-- A matrix of extended reals with `a` rows and `b` columns. -/
abbrev Mat (a b : Nat) : Type := (⟨2, ![a, b]⟩ : Shape).Idx → EReal

variable {M K N : Nat}

/-- A vector of `n` entries laid as the one row of a 1 × n matrix. -/
def rowOf {n : Nat} (v : (⟨1, ![n]⟩ : Shape).Idx → EReal) : Mat 1 n := fun i => v (ix1 (i 1))

theorem rowOf_apply {n : Nat} (v : (⟨1, ![n]⟩ : Shape).Idx → EReal) (z : Fin 1) (q : Fin n) :
    rowOf v (ix2 z q) = v (ix1 q) := rfl

/-- Row p of x against column q of w. -/
def projAt (x : Mat M K) (w : Mat K N) (p : Fin M) (q : Fin N) : EReal := ∑ k : Fin K, x (ix2 p k) * w (ix2 k q)

/-- The matrix product x · w. -/
def proj (x : Mat M K) (w : Mat K N) : Mat M N := fun i => projAt x w (i 0) (i 1)

/-- The residual branch at (p, q): max (x · w + b) 0, b a row. -/
def residAt (x : Mat M K) (w : Mat K N) (b : Mat 1 N) (p : Fin M) (q : Fin N) : EReal :=
  max (projAt x w p q + b (ix2 (0 : Fin 1) q)) 0

/-- The residual branch. -/
def resid (x : Mat M K) (w : Mat K N) (b : Mat 1 N) : Mat M N := fun i => residAt x w b (i 0) (i 1)

/-- The variance offset of the normalisation: the binary32 number nearest 1e-5. -/
def eps : EReal := Ideal.ofBits .f32 0x3727C5AC#32

/-- The join of the aggregate and the residual branch, normalised, at (p, q). -/
def combineAt (res agg : Mat M N) (b g be mu var : Mat 1 N) (p : Fin M) (q : Fin N) : EReal :=
  ((max (agg (ix2 p q) + b (ix2 (0 : Fin 1) q)) 0 + res (ix2 p q)) - mu (ix2 (0 : Fin 1) q))
      * Ideal.rsqrt (var (ix2 (0 : Fin 1) q) + eps) * g (ix2 (0 : Fin 1) q)
    + be (ix2 (0 : Fin 1) q)

/-- The join as an array. -/
def combine (res agg : Mat M N) (b g be mu var : Mat 1 N) : Mat M N :=
  fun i => combineAt res agg b g be mu var (i 0) (i 1)

/-- The classifier's logits at (p, q): h · w + b, b a row. -/
def logitsAt (h : Mat M K) (w : Mat K N) (b : Mat 1 N) (p : Fin M) (q : Fin N) : EReal :=
  projAt h w p q + b (ix2 (0 : Fin 1) q)

/-- The logits as an array. -/
def logits (h : Mat M K) (w : Mat K N) (b : Mat 1 N) : Mat M N := fun i => logitsAt h w b (i 0) (i 1)

/-- The value a row maximum starts from: minus infinity. -/
def negInf : EReal := Ideal.ofBits .f32 0xFF800000#32

/-- The softmax of row p of L at column q, the row's maximum a fold of max from minus infinity. -/
def softmaxRowAt (L : Mat M N) (p : Fin M) (q : Fin N) : EReal :=
  SoftmaxRows.softmaxAt (fun c => L (ix2 p c)) negInf q

/-- The row softmax as an array. -/
def softmax (L : Mat M N) : Mat M N := fun i => softmaxRowAt L (i 0) (i 1)

theorem proj_apply (x : Mat M K) (w : Mat K N) (p : Fin M) (q : Fin N) : proj x w (ix2 p q) = projAt x w p q := rfl
theorem resid_apply (x : Mat M K) (w : Mat K N) (b : Mat 1 N) (p : Fin M) (q : Fin N) :
    resid x w b (ix2 p q) = residAt x w b p q := rfl
theorem combine_apply (res agg : Mat M N) (b g be mu var : Mat 1 N) (p : Fin M) (q : Fin N) :
    combine res agg b g be mu var (ix2 p q) = combineAt res agg b g be mu var p q := rfl
theorem logits_apply (h : Mat M K) (w : Mat K N) (b : Mat 1 N) (p : Fin M) (q : Fin N) :
    logits h w b (ix2 p q) = logitsAt h w b p q := rfl
theorem softmax_apply (L : Mat M N) (p : Fin M) (q : Fin N) : softmax L (ix2 p q) = softmaxRowAt L p q := rfl

end Cert.Gcn

end
-- ==== Proof.LibGraphConvHost.lean ====
/-
  The same four pieces of the network as the reference program spells them with whole-array host operations, read at a
  pair of coordinates, for any extents: a bias, mean, variance, scale or shift vector is first laid as a row and then
  repeated over the node rows; a scalar constant is repeated over a whole array; the matrix product is one contraction;
  the softmax takes the row maximum by a reduction started from minus infinity and compared with minus infinity once
  more, then the row sum of the shifted exponentials.
-/
import Idealize.ShloMosaic.PureOps.Ideal.Laws
import Idealize.ShloMosaic.Lib.Pipeline.Value
import Idealize.ShloMosaic.Lib.ValueIdx
import proofs.«170640_j80590766342785_2_alg».proof.Proof.LibPlainDot
import proofs.«170640_j80590766342785_2_alg».proof.Proof.LibHostReads
import proofs.«170640_j80590766342785_2_alg».proof.Proof.LibLogSoftmaxRows
import proofs.«170640_j80590766342785_2_alg».proof.Proof.LibSoftmaxRows
import proofs.«170640_j80590766342785_2_alg».proof.Proof.LibGraphConvSpec

noncomputable section

open scoped BigOperators

namespace Cert.Gcn

open Idealize.ShloMosaic Idealize.ShloMosaic.ValueIdx

variable {M K N : Nat}

/-- A scalar repeated over a matrix reads the scalar everywhere. -/
theorem bcastScalar2_apply {α : Type} {a b : Nat} (h : (⟨0, ![]⟩ : Shape).BroadcastsInDim ⟨2, ![a, b]⟩ ![])
    (x : (⟨0, ![]⟩ : Shape).Idx → α) (i : (⟨2, ![a, b]⟩ : Shape).Idx) :
    broadcastInDim ⟨2, ![a, b]⟩ ![] h x i = x ix0 :=
  broadcastInDim_apply _ h x i ix0 (fun d => d.elim0)

/-- A scalar repeated over a vector reads the scalar everywhere. -/
theorem bcastScalar1_apply {α : Type} {a : Nat} (h : (⟨0, ![]⟩ : Shape).BroadcastsInDim ⟨1, ![a]⟩ ![])
    (x : (⟨0, ![]⟩ : Shape).Idx → α) (i : (⟨1, ![a]⟩ : Shape).Idx) :
    broadcastInDim ⟨1, ![a]⟩ ![] h x i = x ix0 :=
  broadcastInDim_apply _ h x i ix0 (fun d => d.elim0)

/-- A vector laid as a row and repeated over the rows reads, at (p, q), the vector's entry q. -/
theorem rowBcast_apply {α : Type} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) :=
  (HostReads.bcast_row_apply h2 _ p q).trans (HostReads.bcast_toRow_apply h1 v 0 q)

/-- The host's matrix product is the projection. -/
theorem hostProj_eq (x : FVec Ideal ⟨2, ![M, K]⟩ .f32) (w : FVec Ideal ⟨2, ![K, N]⟩ .f32) :
    (Host.dotGeneral (DotDims.plain M K N) none x w : Mat M N) = proj x w := by
  funext i
  obtain ⟨p, q, rfl⟩ : ∃ (p : Fin M) (q : Fin N), i = ix2 p q := ⟨i 0, i 1, eq_ix2 i⟩
  exact PlainDot.plainDot_apply none x w p q

/-- The host's residual branch at (p, q). -/
theorem hostResid_apply (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf
        (addf (Host.dotGeneral (DotDims.plain M K N) none x w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = residAt (x : Mat M K) w (rowOf b) p q := by
  rw [maximumf_apply, addf_apply, PlainDot.plainDot_apply, rowBcast_apply, bcastScalar2_apply, constant_apply,
    Ideal.ofBits_zero_f32]
  rfl

/-- The host's join at (p, q). -/
theorem hostCombine_apply (res agg : FVec Ideal ⟨2, ![M, N]⟩ .f32) (b g be mu var : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (he : (⟨0, ![]⟩ : Shape).BroadcastsInDim ⟨1, ![N]⟩ ![]) (p : Fin M) (q : Fin N) :
    addf
      (mulf
        (mulf
          (subf
            (addf
              (maximumf
                (addf agg (broadcastInDim ⟨2, ![M, N]⟩ ![0, 1] h2 (broadcastInDim ⟨2, ![1, N]⟩ ![1] h1 b)))
                (broadcastInDim ⟨2, ![M, N]⟩ ![] h0 (constant (F := Ideal) ⟨0, ![]⟩ .f32 0x00000000#32)))
              res)
            (broadcastInDim ⟨2, ![M, N]⟩ ![0, 1] h2 (broadcastInDim ⟨2, ![1, N]⟩ ![1] h1 mu)))
          (broadcastInDim ⟨2, ![M, N]⟩ ![0, 1] h2 (broadcastInDim ⟨2, ![1, N]⟩ ![1] h1
            (Host.rsqrt (addf var (broadcastInDim ⟨1, ![N]⟩ ![] he (constant (F := Ideal) ⟨0, ![]⟩ .f32 0x3727C5AC#32)))))))
        (broadcastInDim ⟨2, ![M, N]⟩ ![0, 1] h2 (broadcastInDim ⟨2, ![1, N]⟩ ![1] h1 g)))
      (broadcastInDim ⟨2, ![M, N]⟩ ![0, 1] h2 (broadcastInDim ⟨2, ![1, N]⟩ ![1] h1 be)) (ix2 p q)
      = combineAt (res : Mat M N) agg (rowOf b) (rowOf g) (rowOf be) (rowOf mu) (rowOf var) p q := by
  rw [addf_apply, mulf_apply, mulf_apply, subf_apply, addf_apply, maximumf_apply, addf_apply]
  rw [rowBcast_apply, rowBcast_apply, rowBcast_apply, rowBcast_apply, rowBcast_apply, bcastScalar2_apply, constant_apply,
    Ideal.ofBits_zero_f32]
  show _ = combineAt (res : Mat M N) agg (rowOf b) (rowOf g) (rowOf be) (rowOf mu) (rowOf var) p q
  unfold combineAt eps
  rw [show Host.rsqrt (addf var (broadcastInDim ⟨1, ![N]⟩ ![] he (constant (F := Ideal) ⟨0, ![]⟩ .f32 0x3727C5AC#32))) (ix1 q)
      = Ideal.rsqrt (var (ix1 q) + Ideal.ofBits .f32 0x3727C5AC#32) from by
    show Ideal.rsqrt (var (ix1 q) + broadcastInDim ⟨1, ![N]⟩ ![] he (constant (F := Ideal) ⟨0, ![]⟩ .f32 0x3727C5AC#32) (ix1 q)) = _
    rw [bcastScalar1_apply, constant_apply]]
  rfl

/-- The host's logits at (p, q). -/
theorem hostLogits_apply (h : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) none h w)
        (broadcastInDim ⟨2, ![M, N]⟩ ![0, 1] h2 (broadcastInDim ⟨2, ![1, N]⟩ ![1] h1 b)) (ix2 p q)
      = logitsAt (h : Mat M K) w (rowOf b) p q := by
  rw [addf_apply, PlainDot.plainDot_apply, rowBcast_apply]
  rfl

/-- The host's row softmax at (i, j). -/
theorem hostSoftmax_apply {a b : Nat} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hc : (⟨1, ![a]⟩ : Shape).BroadcastsInDim ⟨2, ![a, 1]⟩ ![0]) (hb : (⟨2, ![a, 1]⟩ : Shape).BroadcastsInDim ⟨2, ![a, b]⟩ ![0, 1])
    (h0 : (⟨0, ![]⟩ : Shape).BroadcastsInDim ⟨1, ![a]⟩ ![]) (i : Fin a) (j : Fin b) :
    Host.divf
        (Host.exp (subf x (broadcastInDim ⟨2, ![a, b]⟩ ![0, 1] hb (broadcastInDim ⟨2, ![a, 1]⟩ ![0] hc
          (maximumf (broadcastInDim ⟨1, ![a]⟩ ![] h0 (constant (F := Ideal) ⟨0, ![]⟩ .f32 0xFF800000#32))
            (Host.reduce (FloatOps.maximumf (F := Ideal) (φ := .f32)) x (constant (F := Ideal) ⟨0, ![]⟩ .f32 0xFF800000#32) h' hu))))))
        (broadcastInDim ⟨2, ![a, b]⟩ ![0, 1] hb (broadcastInDim ⟨2, ![a, 1]⟩ ![0] hc (Host.reduceAdd
          (Host.exp (subf x (broadcastInDim ⟨2, ![a, b]⟩ ![0, 1] hb (broadcastInDim ⟨2, ![a, 1]⟩ ![0] hc
            (maximumf (broadcastInDim ⟨1, ![a]⟩ ![] h0 (constant (F := Ideal) ⟨0, ![]⟩ .f32 0xFF800000#32))
              (Host.reduce (FloatOps.maximumf (F := Ideal) (φ := .f32)) x (constant (F := Ideal) ⟨0, ![]⟩ .f32 0xFF800000#32) h' hu))))))
          (constant (F := Ideal) ⟨0, ![]⟩ .f32 0x00000000#32) h' hu))) (ix2 i j)
      = softmaxRowAt (x : Mat a b) i j := by
  have hmax : ∀ c : Fin b, broadcastInDim ⟨2, ![a, b]⟩ ![0, 1] hb (broadcastInDim ⟨2, ![a, 1]⟩ ![0] hc
        (maximumf (broadcastInDim ⟨1, ![a]⟩ ![] h0 (constant (F := Ideal) ⟨0, ![]⟩ .f32 0xFF800000#32))
          (Host.reduce (FloatOps.maximumf (F := Ideal) (φ := .f32)) x (constant (F := Ideal) ⟨0, ![]⟩ .f32 0xFF800000#32) h' hu))) (ix2 i c)
      = (Finset.univ : Finset (Fin b)).fold max negInf (fun c => x (ix2 i c)) := fun c =>
    (HostReads.bcast_col_apply hb _ i c).trans ((HostReads.bcast_toCol_apply hc _ i 0).trans
      ((congrArg₂ max (bcastScalar1_apply h0 _ (ix1 i)) (LogSoftmaxRows.hostRowMax2_apply x _ h' h hu i)).trans
        (SoftmaxRows.max_fold_max_self _ _ _)))
  have hexp : ∀ c : Fin b, Host.exp (subf x (broadcastInDim ⟨2, ![a, b]⟩ ![0, 1] hb (broadcastInDim ⟨2, ![a, 1]⟩ ![0] hc
        (maximumf (broadcastInDim ⟨1, ![a]⟩ ![] h0 (constant (F := Ideal) ⟨0, ![]⟩ .f32 0xFF800000#32))
          (Host.reduce (FloatOps.maximumf (F := Ideal) (φ := .f32)) x (constant (F := Ideal) ⟨0, ![]⟩ .f32 0xFF800000#32) h' hu))))) (ix2 i c)
      = Ideal.exp (x (ix2 i c) - (Finset.univ : Finset (Fin b)).fold max negInf (fun c => x (ix2 i c))) := fun c =>
    congrArg (fun m => Ideal.exp (x (ix2 i c) - m)) (hmax c)
  have hsum : broadcastInDim ⟨2, ![a, b]⟩ ![0, 1] hb (broadcastInDim ⟨2, ![a, 1]⟩ ![0] hc (Host.reduceAdd
          (Host.exp (subf x (broadcastInDim ⟨2, ![a, b]⟩ ![0, 1] hb (broadcastInDim ⟨2, ![a, 1]⟩ ![0] hc
            (maximumf (broadcastInDim ⟨1, ![a]⟩ ![] h0 (constant (F := Ideal) ⟨0, ![]⟩ .f32 0xFF800000#32))
              (Host.reduce (FloatOps.maximumf (F := Ideal) (φ := .f32)) x (constant (F := Ideal) ⟨0, ![]⟩ .f32 0xFF800000#32) h' hu))))))
          (constant (F := Ideal) ⟨0, ![]⟩ .f32 0x00000000#32) h' hu)) (ix2 i j)
      = ∑ c : Fin b, Ideal.exp (x (ix2 i c) - (Finset.univ : Finset (Fin b)).fold max negInf (fun c => x (ix2 i c))) :=
    (HostReads.bcast_col_apply hb _ i j).trans ((HostReads.bcast_toCol_apply hc _ i 0).trans
      ((LogSoftmaxRows.hostRowSum2_apply _ _ h' h hu i).trans
        ((congrArg (· + _) (Ideal.ofBits_zero_f32)).trans ((zero_add _).trans (Finset.sum_congr rfl fun c _ => hexp c)))))
  show Ideal.div _ _ = _
  unfold softmaxRowAt SoftmaxRows.softmaxAt
  exact congrArg₂ Ideal.div (hexp j) hsum

end Cert.Gcn

end
-- ==== Proof.Edges.lean ====
/-
  The edge step of a layer, as the host computes it on both sides: each edge's source index, wrapped into range when
  negative, picks a row of the projected features; the picked rows are added into the rows named by the edges'
  destination indices, starting from zeros.  The step is kept as one opaque function of the projected features and
  the two index arrays: the two programs apply the same function, so nothing about which rows it picks is needed.
-/
import proofs.«170640_j80590766342785_2_alg».proof.Proof.Gen.KernelIdeal
import Idealize.ShloMosaic.PureOps.Ideal

noncomputable section

namespace Cert.Gcn

open Idealize.ShloMosaic Cert.KernelIdeal Cert.KernelIdeal.Facts₀

/-- The aggregate of the projected features `hw` over the edges (src, dst). -/
def aggOf (hw : (⟨S50000x128, .f32⟩ : BufTy).Contents (Elt Ideal)) (src dst : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 hw
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.Gcn

end
-- ==== Proof.Network.lean ====
/-
  The whole network as one function of its twenty-one input arrays (features, edge sources, edge destinations, and per
  layer the two weights, the two biases and the four normalisation vectors; the classifier's matrix and bias): two
  layers — projection, edge step, residual branch, join — then the classifier's logits and their row softmax.
-/
import proofs.«170640_j80590766342785_2_alg».proof.Proof.LibGraphConvSpec
import proofs.«170640_j80590766342785_2_alg».proof.Proof.Edges

noncomputable section

namespace Cert.Gcn

open Idealize.ShloMosaic

/-- A vector of `n` extended reals. -/
abbrev Vec1 (n : Nat) : Type := (⟨1, ![n]⟩ : Shape).Idx → EReal

/-- The network's input arrays, in the order both programs take them. -/
structure Inputs where
  x0 : Mat 50000 1024
  x1 : (⟨1, ![800000]⟩ : Shape).Idx → BitVec 32
  x2 : (⟨1, ![800000]⟩ : Shape).Idx → BitVec 32
  x3 : Mat 1024 128
  x4 : Vec1 128
  x5 : Mat 1024 128
  x6 : Vec1 128
  x7 : Vec1 128
  x8 : Vec1 128
  x9 : Vec1 128
  x10 : Vec1 128
  x11 : Mat 128 128
  x12 : Vec1 128
  x13 : Mat 128 128
  x14 : Vec1 128
  x15 : Vec1 128
  x16 : Vec1 128
  x17 : Vec1 128
  x18 : Vec1 128
  x19 : Mat 128 2
  x20 : Vec1 2

namespace Inputs

variable (I : Inputs)

/-- First layer: projected features. -/
def hw0 : Mat 50000 128 := proj I.x0 I.x3
/-- First layer: residual branch. -/
def res0 : Mat 50000 128 := resid I.x0 I.x5 (rowOf I.x6)
/-- First layer: aggregate over the edges. -/
def agg0 : Mat 50000 128 := aggOf I.hw0 I.x1 I.x2
/-- First layer: output. -/
def h1 : Mat 50000 128 := combine I.res0 I.agg0 (rowOf I.x4) (rowOf I.x7) (rowOf I.x8) (rowOf I.x9) (rowOf I.x10)
/-- Second layer: projected features. -/
def hw1 : Mat 50000 128 := proj I.h1 I.x11
/-- Second layer: residual branch. -/
def res1 : Mat 50000 128 := resid I.h1 I.x13 (rowOf I.x14)
/-- Second layer: aggregate over the edges. -/
def agg1 : Mat 50000 128 := aggOf I.hw1 I.x1 I.x2
/-- Second layer: output. -/
def h2 : Mat 50000 128 := combine I.res1 I.agg1 (rowOf I.x12) (rowOf I.x15) (rowOf I.x16) (rowOf I.x17) (rowOf I.x18)
/-- The network's result: the class probabilities of every node. -/
def out : Mat 50000 2 := softmax (logits I.h2 I.x19 (rowOf I.x20))

end Inputs

end Cert.Gcn

end
-- ==== Proof.RefStages.lean ====
/-
  The reference program's stages named by what they are: its two projections, residual branches, aggregates and joins,
  its logits and its result, each as the network's function (Spec) of the stage before — the vectors laid as rows.
-/
import proofs.«170640_j80590766342785_2_alg».proof.Proof.Gen.ReferenceIdeal.Read
import proofs.«170640_j80590766342785_2_alg».proof.Proof.LibGraphConvHost
import proofs.«170640_j80590766342785_2_alg».proof.Proof.Edges
import proofs.«170640_j80590766342785_2_alg».proof.Proof.Network

set_option maxRecDepth 16384

noncomputable section

namespace Cert.Gcn.Ref

open Idealize.ShloMosaic Idealize.ShloMosaic.ValueIdx Cert.ReferenceIdeal Cert.ReferenceIdeal.Read Cert.Gcn

variable (x0 : (⟨S50000x1024, .f32⟩ : BufTy).Contents (Elt Ideal)) (x1 x2 : (⟨S800000, .i32⟩ : BufTy).Contents (Elt Ideal)) (x3 x5 : (⟨S1024x128, .f32⟩ : BufTy).Contents (Elt Ideal))
  (x4 x6 x7 x8 x9 x10 x12 x14 x15 x16 x17 x18 : (⟨S128, .f32⟩ : BufTy).Contents (Elt Ideal)) (x11 x13 : (⟨S128x128, .f32⟩ : BufTy).Contents (Elt Ideal))
  (x19 : (⟨S128x2, .f32⟩ : BufTy).Contents (Elt Ideal)) (x20 : (⟨S2, .f32⟩ : BufTy).Contents (Elt Ideal))

/-- First layer: the projected features. -/
theorem hw0 : (val_main_v0 (F := Ideal) x0 x3 : Mat 50000 128) = proj (x0 : Mat 50000 1024) x3 := by
  unfold val_main_v0
  exact hostProj_eq x0 x3

/-- First layer: the residual branch. -/
theorem res0 : (val_main_v19 (F := Ideal) x0 x5 x6 : Mat 50000 128) = resid (x0 : Mat 50000 1024) x5 (rowOf x6) := by
  funext i
  obtain ⟨p, q, rfl⟩ : ∃ (p : Fin 50000) (q : Fin 128), i = ix2 p q := ⟨i 0, i 1, eq_ix2 i⟩
  unfold val_main_v19 val_main_v18 val_main_v17 val_main_v16 val_main_v15 val_main_call1_v0 val_main_call1_cst
  exact hostResid_apply x0 x5 x6 _ _ _ p q

/-- First layer: the aggregate is the edge step of the projected features. -/
theorem agg0 : val_main_v10 (F := Ideal) x0 x1 x2 x3 = aggOf (val_main_v0 (F := Ideal) x0 x3) x1 x2 := by
  unfold val_main_v10 val_main_v9 val_main_v8 val_main_cst val_main_v7 val_main_v6 val_main_v5 val_main_v4 val_main_v3 val_main_c_0
    val_main_v2 val_main_v1 val_main_c aggOf
  rfl

/-- First layer: its output, the join. -/
theorem h1 : (val_main_v35 (F := Ideal) x0 x1 x2 x3 x4 x5 x6 x7 x8 x9 x10 : Mat 50000 128)
    = combine (val_main_v19 (F := Ideal) x0 x5 x6 : Mat 50000 128) (val_main_v10 (F := Ideal) x0 x1 x2 x3) (rowOf x4) (rowOf x7) (rowOf x8)
        (rowOf x9) (rowOf x10) := by
  funext i
  obtain ⟨p, q, rfl⟩ : ∃ (p : Fin 50000) (q : Fin 128), i = ix2 p q := ⟨i 0, i 1, eq_ix2 i⟩
  unfold val_main_v35 val_main_v34 val_main_v33 val_main_v32 val_main_v31 val_main_v30 val_main_v29 val_main_v28 val_main_v27
    val_main_v26 val_main_v25 val_main_v24 val_main_cst_1 val_main_v23 val_main_v22 val_main_v21 val_main_v20 val_main_v14
    val_main_v13 val_main_v12 val_main_v11 val_main_call0_v0 val_main_call0_cst
  exact hostCombine_apply (val_main_v19 (F := Ideal) x0 x5 x6) (val_main_v10 (F := Ideal) x0 x1 x2 x3) x4 x7 x8 x9 x10 _ _ _ _ p q

/-- Second layer: the projected features. -/
theorem hw1 : (val_main_v36 (F := Ideal) x0 x1 x2 x3 x4 x5 x6 x7 x8 x9 x10 x11 : Mat 50000 128)
    = proj (val_main_v35 (F := Ideal) x0 x1 x2 x3 x4 x5 x6 x7 x8 x9 x10 : Mat 50000 128) x11 := by
  unfold val_main_v36
  exact hostProj_eq (val_main_v35 (F := Ideal) x0 x1 x2 x3 x4 x5 x6 x7 x8 x9 x10) x11

/-- Second layer: the residual branch. -/
theorem res1 : (val_main_v55 (F := Ideal) x0 x1 x2 x3 x4 x5 x6 x7 x8 x9 x10 x13 x14 : Mat 50000 128)
    = resid (val_main_v35 (F := Ideal) x0 x1 x2 x3 x4 x5 x6 x7 x8 x9 x10 : Mat 50000 128) x13 (rowOf x14) := by
  funext i
  obtain ⟨p, q, rfl⟩ : ∃ (p : Fin 50000) (q : Fin 128), i = ix2 p q := ⟨i 0, i 1, eq_ix2 i⟩
  unfold val_main_v55 val_main_v54 val_main_v53 val_main_v52 val_main_v51 val_main_call3_v0 val_main_call3_cst
  exact hostResid_apply (val_main_v35 (F := Ideal) x0 x1 x2 x3 x4 x5 x6 x7 x8 x9 x10) x13 x14 _ _ _ p q

/-- Second layer: the aggregate. -/
theorem agg1 : val_main_v46 (F := Ideal) x0 x1 x2 x3 x4 x5 x6 x7 x8 x9 x10 x11 = aggOf (val_main_v36 (F := Ideal) x0 x1 x2 x3 x4 x5 x6 x7 x8 x9 x10 x11) x1 x2 := by
  unfold val_main_v46 val_main_v45 val_main_v44 val_main_cst_4 val_main_v43 val_main_v42 val_main_v41 val_main_v40 val_main_v39
    val_main_c_3 val_main_v38 val_main_v37 val_main_c_2 aggOf
  rfl

/-- Second layer: its output, the join. -/
theorem h2 : (val_main_v71 (F := Ideal) x0 x1 x2 x3 x4 x5 x6 x7 x8 x9 x10 x11 x12 x13 x14 x15 x16 x17 x18 : Mat 50000 128)
    = combine (val_main_v55 (F := Ideal) x0 x1 x2 x3 x4 x5 x6 x7 x8 x9 x10 x13 x14 : Mat 50000 128) (val_main_v46 (F := Ideal) x0 x1 x2 x3 x4 x5 x6 x7 x8 x9 x10 x11) (rowOf x12) (rowOf x15)
        (rowOf x16) (rowOf x17) (rowOf x18) := by
  funext i
  obtain ⟨p, q, rfl⟩ : ∃ (p : Fin 50000) (q : Fin 128), i = ix2 p q := ⟨i 0, i 1, eq_ix2 i⟩
  unfold val_main_v71 val_main_v70 val_main_v69 val_main_v68 val_main_v67 val_main_v66 val_main_v65 val_main_v64 val_main_v63
    val_main_v62 val_main_v61 val_main_v60 val_main_cst_5 val_main_v59 val_main_v58 val_main_v57 val_main_v56 val_main_v50
    val_main_v49 val_main_v48 val_main_v47 val_main_call2_v0 val_main_call2_cst
  exact hostCombine_apply (val_main_v55 (F := Ideal) x0 x1 x2 x3 x4 x5 x6 x7 x8 x9 x10 x13 x14) (val_main_v46 (F := Ideal) x0 x1 x2 x3 x4 x5 x6 x7 x8 x9 x10 x11) x12 x15 x16 x17 x18 _ _ _ _ p q

/-- The classifier's logits. -/
theorem logits_eq : (val_main_v75 (F := Ideal) x0 x1 x2 x3 x4 x5 x6 x7 x8 x9 x10 x11 x12 x13 x14 x15 x16 x17 x18 x19 x20 : Mat 50000 2)
    = logits (val_main_v71 (F := Ideal) x0 x1 x2 x3 x4 x5 x6 x7 x8 x9 x10 x11 x12 x13 x14 x15 x16 x17 x18 : Mat 50000 128) x19 (rowOf x20) := by
  funext i
  obtain ⟨p, q, rfl⟩ : ∃ (p : Fin 50000) (q : Fin 2), i = ix2 p q := ⟨i 0, i 1, eq_ix2 i⟩
  unfold val_main_v75 val_main_v74 val_main_v73 val_main_v72
  exact hostLogits_apply (val_main_v71 (F := Ideal) x0 x1 x2 x3 x4 x5 x6 x7 x8 x9 x10 x11 x12 x13 x14 x15 x16 x17 x18) x19 x20 _ _ p q

/-- The result: the row softmax of the logits. -/
theorem result_eq : (val_main_v86 (F := Ideal) x0 x1 x2 x3 x4 x5 x6 x7 x8 x9 x10 x11 x12 x13 x14 x15 x16 x17 x18 x19 x20 : Mat 50000 2)
    = softmax (val_main_v75 (F := Ideal) x0 x1 x2 x3 x4 x5 x6 x7 x8 x9 x10 x11 x12 x13 x14 x15 x16 x17 x18 x19 x20 : Mat 50000 2) := by
  funext i
  obtain ⟨p, q, rfl⟩ : ∃ (p : Fin 50000) (q : Fin 2), i = ix2 p q := ⟨i 0, i 1, eq_ix2 i⟩
  unfold val_main_v86 val_main_v85 val_main_v84 val_main_v83 val_main_cst_8 val_main_v82 val_main_v81 val_main_v80 val_main_v79
    val_main_v78 val_main_v77 val_main_cst_7 val_main_v76 val_main_cst_6
  exact hostSoftmax_apply (val_main_v75 (F := Ideal) x0 x1 x2 x3 x4 x5 x6 x7 x8 x9 x10 x11 x12 x13 x14 x15 x16 x17 x18 x19 x20) _ (by decide) _ _ _ _ p q

/-- The reference's result is the network's function of its arguments. -/
theorem out_eq (I : Inputs) :
    (val_main_v86 (F := Ideal) I.x0 I.x1 I.x2 I.x3 I.x4 I.x5 I.x6 I.x7 I.x8 I.x9 I.x10 I.x11 I.x12 I.x13 I.x14 I.x15 I.x16 I.x17 I.x18 I.x19 I.x20 : Mat 50000 2) = I.out := by
  rw [result_eq, logits_eq, h2, res1, agg1, hw1, h1, res0, agg0, hw0]
  rfl

end Cert.Gcn.Ref

end
-- ==== Proof.LibGraphConvBlocks.lean ====
/-
  The four kinds of block a kernel of the network computes, read at a pair of coordinates, for any extents.

  A block is a run of TM consecutive node rows.  On a block the projection is a matrix product into a zero accumulator
  (a finite sum at each entry), the residual branch adds a bias row and clips at zero, the join is pointwise in the
  block's entries and in the six rows it is given, and the last kernel multiplies the joined block by the classifier's
  matrix, adds its bias row, and takes the softmax of every row — the row maximum started from minus infinity and
  then compared with minus infinity once more, which changes nothing.  Narrowing a block to a shorter float format
  is the identity on extended reals, so it disappears from every statement.
-/
import Idealize.ShloMosaic.PureOps.Ideal.Laws
import Idealize.ShloMosaic.Lib.ValueIdx
import Idealize.ShloMosaic.Lib.ValueLayout
import proofs.«170640_j80590766342785_2_alg».proof.Proof.LibPlainMatmul
import proofs.«170640_j80590766342785_2_alg».proof.Proof.LibKeepdims
import proofs.«170640_j80590766342785_2_alg».proof.Proof.LibSoftmaxRows
import proofs.«170640_j80590766342785_2_alg».proof.Proof.LibGraphConvSpec

noncomputable section

open scoped BigOperators

namespace Cert.Gcn

open Idealize.ShloMosaic Idealize.ShloMosaic.ValueIdx

variable {TM K N : Nat}

/-- The projection block at (p, q): row p of the block against column q of the weight. -/
theorem projBlock_apply {φ : FTy} (x : FVec Ideal ⟨2, ![TM, K]⟩ φ) (w : FVec Ideal ⟨2, ![K, N]⟩ .f32)
    (hw : FTy.bf16.bits < FTy.f32.bits) (p : Fin TM) (q : Fin N) :
    (truncf .bf16 (matmul (DotDims.plain TM K N) none x (truncf .bf16 w hw)
        (constant ⟨2, ![TM, N]⟩ .f32 0x00000000#32)) hw : FVec Ideal ⟨2, ![TM, N]⟩ .bf16) (ix2 p q)
      = projAt (x : Mat TM K) w p q := by
  rw [truncf_apply, PlainMatmul.plainMatmul_apply]
  rfl

/-- The residual block at (p, q): the same sum plus the bias row's entry q, clipped at zero. -/
theorem residBlock_apply {φ : FTy} (x : FVec Ideal ⟨2, ![TM, K]⟩ φ) (w : FVec Ideal ⟨2, ![K, N]⟩ .f32)
    (b : FVec Ideal ⟨2, ![1, N]⟩ .f32) (hw : FTy.bf16.bits < FTy.f32.bits)
    (hc : (⟨2, ![1, N]⟩ : Shape).ShapeCasts ⟨2, ![1, N]⟩) (hb : (⟨2, ![1, N]⟩ : Shape).Broadcasts ⟨2, ![TM, N]⟩)
    (p : Fin TM) (q : Fin N) :
    maximumf
        (addf (matmul (DotDims.plain TM K N) none x (truncf .bf16 w hw) (constant ⟨2, ![TM, N]⟩ .f32 0x00000000#32))
          (broadcastTo ⟨2, ![TM, N]⟩ (shapeCast ⟨2, ![1, N]⟩ b hc) hb))
        (broadcast ⟨2, ![TM, N]⟩ (Scalar.ofBits (F := Ideal) .f32 0x00000000#32)) (ix2 p q)
      = residAt (x : Mat TM K) w b p q := by
  rw [maximumf_apply, addf_apply, PlainMatmul.plainMatmul_apply, shapeCast_self, broadcastTo_1b_ab_apply, broadcast_apply,
    show Scalar.ofBits (F := Ideal) .f32 0x00000000#32 = (0 : EReal) from Ideal.ofBits_zero_f32]
  rfl

/-- The joined block at (p, q). -/
theorem combineBlock_apply (res agg : FVec Ideal ⟨2, ![TM, N]⟩ .f32) (b g be mu var : FVec Ideal ⟨2, ![1, N]⟩ .f32)
    (hcA : (⟨2, ![TM, N]⟩ : Shape).ShapeCasts ⟨2, ![TM, N]⟩) (hcR : (⟨2, ![1, N]⟩ : Shape).ShapeCasts ⟨2, ![1, N]⟩)
    (hbR : (⟨2, ![1, N]⟩ : Shape).Broadcasts ⟨2, ![TM, N]⟩) (p : Fin TM) (q : Fin N) :
    addf
      (mulf
        (mulf
          (subf
            (addf
              (maximumf
                (addf (shapeCast ⟨2, ![TM, N]⟩ agg hcA) (broadcastTo ⟨2, ![TM, N]⟩ (shapeCast ⟨2, ![1, N]⟩ b hcR) hbR))
                (broadcast ⟨2, ![TM, N]⟩ (Scalar.ofBits (F := Ideal) .f32 0x00000000#32)))
              (shapeCast ⟨2, ![TM, N]⟩ res hcA))
            (broadcastTo ⟨2, ![TM, N]⟩ (shapeCast ⟨2, ![1, N]⟩ mu hcR) hbR))
          (broadcastTo ⟨2, ![TM, N]⟩
            (rsqrt (addf (shapeCast ⟨2, ![1, N]⟩ var hcR)
              (broadcast ⟨2, ![1, N]⟩ (Scalar.ofBits (F := Ideal) .f32 0x3727C5AC#32)))) hbR))
        (broadcastTo ⟨2, ![TM, N]⟩ (shapeCast ⟨2, ![1, N]⟩ g hcR) hbR))
      (broadcastTo ⟨2, ![TM, N]⟩ (shapeCast ⟨2, ![1, N]⟩ be hcR) hbR) (ix2 p q)
      = combineAt (res : Mat TM N) agg b g be mu var p q := by
  rw [addf_apply, mulf_apply, mulf_apply, subf_apply, addf_apply, maximumf_apply, addf_apply, broadcast_apply]
  simp only [shapeCast_self, broadcastTo_1b_ab_apply]
  rw [show Scalar.ofBits (F := Ideal) .f32 0x00000000#32 = (0 : EReal) from Ideal.ofBits_zero_f32]
  rfl

/-- The softmax of every row of a block of logits, the row maximum compared once more with the value it started from,
    at (r, j). -/
theorem softmaxBlock_apply {n0 n1 : Nat} (s : FVec Ideal ⟨2, ![n0, n1]⟩ .f32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : (0xFF800000#32 : BitVec 32) = FKind.maximumf.neutral .f32 hφ)
    (hS : (0x00000000#32 : BitVec 32) = FKind.add.neutral .f32 hφ) (r : Fin n0) (j : Fin n1) :
    divf
        (exp (subf s (broadcastTo ⟨2, ![n0, n1]⟩ (shapeCast ⟨2, ![n0, 1]⟩
          (maximumf (broadcast ⟨1, ![n0]⟩ (Scalar.ofBits (F := Ideal) .f32 0xFF800000#32))
            (multiReduction .maximumf [1] ⟨1, ![n0]⟩ s 0xFF800000#32 hr hφ hM)) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩
            (maximumf (broadcast ⟨1, ![n0]⟩ (Scalar.ofBits (F := Ideal) .f32 0xFF800000#32))
              (multiReduction .maximumf [1] ⟨1, ![n0]⟩ s 0xFF800000#32 hr hφ hM)) hc) hb)))
          0x00000000#32 hr hφ hS) hc) hb) (ix2 r j)
      = softmaxRowAt (s : Mat n0 n1) r j := by
  have hmax : ∀ c : Fin n1, broadcastTo ⟨2, ![n0, n1]⟩ (shapeCast ⟨2, ![n0, 1]⟩
        (maximumf (broadcast ⟨1, ![n0]⟩ (Scalar.ofBits (F := Ideal) .f32 0xFF800000#32))
          (multiReduction .maximumf [1] ⟨1, ![n0]⟩ s 0xFF800000#32 hr hφ hM)) hc) hb (ix2 r c)
      = (Finset.univ : Finset (Fin n1)).fold max negInf (fun c => s (ix2 r c)) := fun c =>
    (Keepdims.bcast_col_apply _ hb r c).trans ((Keepdims.cast_col_apply _ hc r 0).trans
      ((congrArg (max negInf) (SoftmaxRows.rowMax2_apply s 0xFF800000#32 hr hφ hM r)).trans
        (SoftmaxRows.max_fold_max_self _ _ _)))
  have hexp : ∀ c : Fin n1, exp (subf s (broadcastTo ⟨2, ![n0, n1]⟩ (shapeCast ⟨2, ![n0, 1]⟩
        (maximumf (broadcast ⟨1, ![n0]⟩ (Scalar.ofBits (F := Ideal) .f32 0xFF800000#32))
          (multiReduction .maximumf [1] ⟨1, ![n0]⟩ s 0xFF800000#32 hr hφ hM)) hc) hb)) (ix2 r c)
      = Ideal.exp (s (ix2 r c) - (Finset.univ : Finset (Fin n1)).fold max negInf (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩
            (maximumf (broadcast ⟨1, ![n0]⟩ (Scalar.ofBits (F := Ideal) .f32 0xFF800000#32))
              (multiReduction .maximumf [1] ⟨1, ![n0]⟩ s 0xFF800000#32 hr hφ hM)) hc) hb)))
          0x00000000#32 hr hφ hS) hc) hb (ix2 r j)
      = ∑ c : Fin n1, Ideal.exp (s (ix2 r c) - (Finset.univ : Finset (Fin n1)).fold max negInf (fun c => s (ix2 r c))) :=
    (Keepdims.bcast_col_apply _ hb r j).trans ((Keepdims.cast_col_apply _ hc r 0).trans
      ((Keepdims.rowSum2_apply _ 0x00000000#32 hr hφ hS r).trans (Finset.sum_congr rfl fun c _ => hexp c)))
  show Ideal.div _ _ = _
  unfold softmaxRowAt SoftmaxRows.softmaxAt
  exact congrArg₂ Ideal.div (hexp j) hsum

end Cert.Gcn

end
-- ==== Proof.Payloads.lean ====
/-
  What each kernel body stores, read at a pair of coordinates of its block (2000 node rows): the first and third
  kernels store the block's projection and its residual branch, the second the joined and normalised block, the fourth
  the row softmax of the classifier's logits of the joined block.
-/
import proofs.«170640_j80590766342785_2_alg».proof.Proof.Gen.KernelIdeal.Skeleton
import proofs.«170640_j80590766342785_2_alg».proof.Proof.LibGraphConvBlocks

noncomputable section

open scoped BigOperators

namespace Cert.Gcn

open Idealize.ShloMosaic Idealize.ShloMosaic.ValueIdx Cert.KernelIdeal Cert.KernelIdeal.Gen

/-- First kernel, first store: the block's rows against the weight's columns. -/
theorem pay0_proj (v0 : Vec Ideal S2000x1024 .f32) (v2 : Vec Ideal S1024x128 .f32) (p : Fin 2000) (q : Fin 128) :
    k0_pay2 (F := Ideal) v0 v2 (ix2 p q) = projAt (v0 : Mat 2000 1024) v2 p q := by
  unfold k0_pay2 k0_pay1
  exact projBlock_apply (truncf .bf16 v0 bitsLt_bf16_f32) v2 bitsLt_bf16_f32 p q

/-- First kernel, second store: the residual branch of the block. -/
theorem pay0_resid (v0 : Vec Ideal S2000x1024 .f32) (v4 : Vec Ideal S1024x128 .f32) (v10 : Vec Ideal S1x128 .f32)
    (p : Fin 2000) (q : Fin 128) :
    k0_pay3 (F := Ideal) v0 v4 v10 (ix2 p q) = residAt (v0 : Mat 2000 1024) v4 v10 p q := by
  unfold k0_pay3 k0_pay1
  exact residBlock_apply (truncf .bf16 v0 bitsLt_bf16_f32) v4 v10 bitsLt_bf16_f32 _ _ p q

/-- Second kernel: the join of the aggregate block (v0) and the residual block (v8) with the rows b (v2), mean (v11),
    var (v15), gamma (v22), beta (v26). -/
theorem pay1_combine (v0 : Vec Ideal S2000x128 .f32) (v2 : Vec Ideal S1x128 .f32) (v8 : Vec Ideal S2000x128 .f32)
    (v11 v15 v22 v26 : Vec Ideal S1x128 .f32) (p : Fin 2000) (q : Fin 128) :
    k1_pay1 (F := Ideal) v0 v2 v8 v11 v15 v22 v26 (ix2 p q)
      = combineAt (v8 : Mat 2000 128) v0 v2 v22 v26 v11 v15 p q := by
  unfold k1_pay1
  exact combineBlock_apply v8 v0 v2 v22 v26 v11 v15 _ _ _ p q

/-- Third kernel, first store. -/
theorem pay2_proj (v0 : Vec Ideal S2000x128 .bf16) (v2 : Vec Ideal S128x128 .f32) (p : Fin 2000) (q : Fin 128) :
    k2_pay2 (F := Ideal) v0 v2 (ix2 p q) = projAt (v0 : Mat 2000 128) v2 p q := by
  unfold k2_pay2 k2_pay1
  rw [shapeCast_self]
  exact projBlock_apply v0 v2 bitsLt_bf16_f32 p q

/-- Third kernel, second store. -/
theorem pay2_resid (v0 : Vec Ideal S2000x128 .bf16) (v4 : Vec Ideal S128x128 .f32) (v10 : Vec Ideal S1x128 .f32)
    (p : Fin 2000) (q : Fin 128) :
    k2_pay3 (F := Ideal) v0 v4 v10 (ix2 p q) = residAt (v0 : Mat 2000 128) v4 v10 p q := by
  unfold k2_pay3 k2_pay1
  rw [shapeCast_self]
  exact residBlock_apply v0 v4 v10 bitsLt_bf16_f32 _ _ p q

/-- Fourth kernel: the logits of the joined block. -/
theorem pay3_logits (v0 : Vec Ideal S2000x128 .f32) (v2 : Vec Ideal S1x128 .f32) (v8 : Vec Ideal S2000x128 .f32)
    (v11 v15 v22 v26 : Vec Ideal S1x128 .f32) (v31 : Vec Ideal S128x2 .f32) (v34 : Vec Ideal S1x2 .f32)
    (p : Fin 2000) (q : Fin 2) :
    k3_pay2 (F := Ideal) v0 v2 v8 v11 v15 v22 v26 v31 v34 (ix2 p q)
      = logitsAt (combine (v8 : Mat 2000 128) v0 v2 v22 v26 v11 v15) v31 v34 p q := by
  unfold k3_pay2 logitsAt
  rw [addf_apply]
  refine congrArg₂ (fun a b : EReal => a + b) ?_ ?_
  · refine (PlainMatmul.plainMatmul_apply (M := 2000) (K := 128) (N := 2) none _ _ p q).trans ?_
    unfold projAt
    refine Finset.sum_congr rfl fun k _ => congrArg (fun s : EReal => s * v31 (ix2 k q)) ?_
    exact combineBlock_apply v8 v0 v2 v22 v26 v11 v15 _ _ _ p k
  · rw [shapeCast_self, broadcastTo_1b_ab_apply]

/-- Fourth kernel: what it stores, the row softmax of those logits. -/
theorem pay3_softmax (v0 : Vec Ideal S2000x128 .f32) (v2 : Vec Ideal S1x128 .f32) (v8 : Vec Ideal S2000x128 .f32)
    (v11 v15 v22 v26 : Vec Ideal S1x128 .f32) (v31 : Vec Ideal S128x2 .f32) (v34 : Vec Ideal S1x2 .f32)
    (p : Fin 2000) (q : Fin 2) :
    k3_pay1 (F := Ideal) (k3_pay2 v0 v2 v8 v11 v15 v22 v26 v31 v34) (ix2 p q)
      = softmaxRowAt (logits (combine (v8 : Mat 2000 128) v0 v2 v22 v26 v11 v15) v31 v34) p q := by
  have hL : (k3_pay2 (F := Ideal) v0 v2 v8 v11 v15 v22 v26 v31 v34 : Mat 2000 2)
      = logits (combine (v8 : Mat 2000 128) v0 v2 v22 v26 v11 v15) v31 v34 := by
    funext i
    obtain ⟨a, b, rfl⟩ : ∃ (a : Fin 2000) (b : Fin 2), i = ix2 a b := ⟨i 0, i 1, eq_ix2 i⟩
    exact pay3_logits v0 v2 v8 v11 v15 v22 v26 v31 v34 a b
  unfold k3_pay1
  refine (softmaxBlock_apply (k3_pay2 (F := Ideal) v0 v2 v8 v11 v15 v22 v26 v31 v34) _ _ _ _ _ _ p q).trans ?_
  rw [hL]

end Cert.Gcn

end
-- ==== Proof.Region0.lean ====
/-
  The first kernel's two result arrays as whole-array functions of the arrays it is given.

  The kernel walks 25 blocks of 2000 node rows.  At block t it reads rows 2000 t … 2000 t + 1999 of the features and the
  whole of both weights and of the bias row, and writes the same rows of its two results: row 2000 t + p of the first
  result is row p of the block's projection, of the second row p of its residual branch.  Since the 25 blocks tile the
  50000 rows, the first result is the projection of the whole feature matrix and the second its residual branch.
-/
import proofs.«170640_j80590766342785_2_alg».proof.Proof.Gen.KernelIdeal.Frame
import proofs.«170640_j80590766342785_2_alg».proof.Proof.Payloads
import Idealize.ShloMosaic.Lib.Pipeline.Value

set_option maxRecDepth 16384

noncomputable section

open scoped BigOperators

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows (features, both results) at block row t, the
    resident ones (weights, bias row) at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of block t is node row 2000 t + p. -/
def nodeRow (t : Fin cfg0.N) (p : Fin 2000) : Fin 50000 :=
  ⟨t.val * 2000 + p.val, by have h := t.isLt; have hN : cfg0.N = 25 := N_0; have := p.isLt; omega⟩

/-- The features' block at point t, at (p, k): the features at (2000 t + p, k). -/
theorem read_x (c : Dev nD) (t : Fin cfg0.N) (p : Fin 2000) (k : Fin 1024) :
    iblk0 V c 0 t (ix2 p k) = V c main_arg0 (ix2 (nodeRow t p) k) := by
  obtain ⟨e0, e1, -⟩ := idx_facts t
  show V c main_arg0 (((cfg0.win 0).blk t).view.emb (ix2 p k)) = V c main_arg0 (ix2 (nodeRow t p) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 1024 + 1 * k.val = k.val; omega

/-- The first weight's block at any point is the weight. -/
theorem read_w (c : Dev nD) (t : Fin cfg0.N) (k : Fin 1024) (q : Fin 128) :
    iblk0 V c 1 t (ix2 k q) = V c main_arg3 (ix2 k q) := by
  obtain ⟨-, -, e0, e1, -⟩ := idx_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 1024 + 1 * k.val = k.val; omega
  | ⟨1, _⟩ => show win0_1.index t (1 : Fin 2) * 128 + 1 * q.val = q.val; omega

/-- The second weight's block at any point is the weight. -/
theorem read_wr (c : Dev nD) (t : Fin cfg0.N) (k : Fin 1024) (q : Fin 128) :
    iblk0 V c 2 t (ix2 k q) = V c main_arg5 (ix2 k q) := by
  obtain ⟨-, -, -, -, e0, e1, -⟩ := idx_facts t
  show V c main_arg5 (((cfg0.win 2).blk t).view.emb (ix2 k q)) = V c main_arg5 (ix2 k q)
  refine congrArg (V c main_arg5) (funext fun a => Fin.ext ?_)
  match a with
  | ⟨0, _⟩ => show win0_2.index t (0 : Fin 2) * 1024 + 1 * k.val = k.val; omega
  | ⟨1, _⟩ => show win0_2.index t (1 : Fin 2) * 128 + 1 * q.val = q.val; omega

/-- The bias row's block at any point is the row. -/
theorem read_br (c : Dev nD) (t : Fin cfg0.N) (z : Fin 1) (q : Fin 128) :
    iblk0 V c 3 t (ix2 z q) = V c main_call0_v0 (ix2 z q) := by
  obtain ⟨-, -, -, -, -, -, e0, e1, -⟩ := idx_facts t
  show V c main_call0_v0 (((cfg0.win 3).blk t).view.emb (ix2 z q)) = V c main_call0_v0 (ix2 z q)
  refine congrArg (V c main_call0_v0) (funext fun a => Fin.ext ?_)
  match a with
  | ⟨0, _⟩ => show win0_3.index t (0 : Fin 2) * 1 + 1 * z.val = z.val; omega
  | ⟨1, _⟩ => show win0_3.index t (1 : Fin 2) * 128 + 1 * q.val = q.val; omega

/-- Entry (p, q) of the first result's block t is entry (2000 t + p, q) of the array. -/
theorem emb_hw (t : Fin cfg0.N) (p : Fin 2000) (q : Fin 128) :
    ((cfg0.win 4).blk t).view.emb (ix2 p q) = ix2 (nodeRow t p) q := by
  obtain ⟨-, -, -, -, -, -, -, -, e0, e1, -⟩ := idx_facts t
  refine funext fun a => Fin.ext ?_
  match a with
  | ⟨0, _⟩ => show win0_4.index t (0 : Fin 2) * 2000 + 1 * p.val = t.val * 2000 + p.val; omega
  | ⟨1, _⟩ => show win0_4.index t (1 : Fin 2) * 128 + 1 * q.val = q.val; omega

/-- The same for the second result. -/
theorem emb_res (t : Fin cfg0.N) (p : Fin 2000) (q : Fin 128) :
    ((cfg0.win 5).blk t).view.emb (ix2 p q) = ix2 (nodeRow t p) q := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-- What point t writes back to the first result is block t of the projection of the whole feature matrix. -/
theorem flushed_hw (c : Dev nD) (t : Fin cfg0.N) :
    (dat0 V c).flushed 4 t
      = ((cfg0.win 4).blk t).view.read (Elt Ideal) (proj (V c main_arg0 : Mat 50000 1024) (V c main_arg3 : Mat 1024 128)) := by
  show (cfg0.win 4).cut (grid0.coords t) ((dat0 V c).after 4 t) = _
  rw [after0_4]
  unfold out0_4
  rw [View.canon_unit_zero hz]
  simp only [View.ld_unit_zero (S := S2000x1024) hz, View.ld_unit_zero (S := S1024x128) hz]
  funext j
  obtain ⟨p, q, rfl⟩ : ∃ (p : Fin 2000) (q : Fin 128), j = ix2 p q := ⟨j 0, j 1, eq_ix2 j⟩
  show k0_pay2 (iblk0 V c 0 t) (iblk0 V c 1 t) (ix2 p q)
    = proj (V c main_arg0 : Mat 50000 1024) (V c main_arg3 : Mat 1024 128) (((cfg0.win 4).blk t).view.emb (ix2 p q))
  rw [emb_hw t p q, proj_apply]
  refine (pay0_proj (iblk0 V c 0 t) (iblk0 V c 1 t) p q).trans ?_
  unfold projAt
  refine Finset.sum_congr rfl fun k _ => ?_
  rw [read_x V c t p k, read_w V c t k q]

/-- What point t writes back to the second result is block t of the residual branch of the whole feature matrix. -/
theorem flushed_res (c : Dev nD) (t : Fin cfg0.N) :
    (dat0 V c).flushed 5 t
      = ((cfg0.win 5).blk t).view.read (Elt Ideal)
          (resid (V c main_arg0 : Mat 50000 1024) (V c main_arg5 : Mat 1024 128) (V c main_call0_v0 : Mat 1 128)) := by
  show (cfg0.win 5).cut (grid0.coords t) ((dat0 V c).after 5 t) = _
  rw [after0_5]
  unfold out0_5
  rw [View.canon_unit_zero hz]
  simp only [View.ld_unit_zero (S := S2000x1024) hz, View.ld_unit_zero (S := S1024x128) hz, View.ld_unit_zero (S := S1x128) hz]
  funext j
  obtain ⟨p, q, rfl⟩ : ∃ (p : Fin 2000) (q : Fin 128), j = ix2 p q := ⟨j 0, j 1, eq_ix2 j⟩
  show k0_pay3 (iblk0 V c 0 t) (iblk0 V c 2 t) (iblk0 V c 3 t) (ix2 p q)
    = resid (V c main_arg0 : Mat 50000 1024) (V c main_arg5 : Mat 1024 128) (V c main_call0_v0 : Mat 1 128)
        (((cfg0.win 5).blk t).view.emb (ix2 p q))
  rw [emb_res t p q, resid_apply]
  refine (pay0_resid (iblk0 V c 0 t) (iblk0 V c 2 t) (iblk0 V c 3 t) p q).trans ?_
  unfold residAt projAt
  rw [read_br V c t 0 q]
  refine congrArg (fun s => max (s + V c main_call0_v0 (ix2 (0 : Fin 1) q)) 0) (Finset.sum_congr rfl fun k _ => ?_)
  rw [read_x V c t p k, read_wr V c t k q]

/-- An index of the first result lies in block t iff each coordinate lies in the block's range. -/
theorem mem_blk_hw (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_call0_v1_0).slice (win0_4.rect t)).set ↔ _
  rw [View.set_slice_whole, Rect.mem_set_unit]
  exact Iff.rfl

theorem mem_blk_res (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_call0_v1_1).slice (win0_5.rect t)).set ↔ _
  rw [View.set_slice_whole, Rect.mem_set_unit]
  exact Iff.rfl

/-- The block that holds node row r is block r / 2000. -/
def blockOf (i : S50000x128.Idx) : Fin cfg0.N :=
  ⟨(i 0).val / 2000, by have h : (i 0).val < 50000 := (i 0).isLt; have hN : cfg0.N = 25 := N_0; omega⟩

theorem cover_hw (i : S50000x128.Idx) :
    ∃ t : Fin cfg0.N, (cfg0.win 4).flush t = true ∧ i ∈ ((cfg0.win 4).blk t).view.set := by
  refine ⟨blockOf i, flush0_4 _, ?_⟩
  obtain ⟨-, -, -, -, -, -, -, -, e0, e1, -⟩ := idx_facts (blockOf i)
  have hv : (blockOf i).val = (i 0).val / 2000 := rfl
  have h0 : (i 0).val < 50000 := (i 0).isLt
  have h1 : (i 1).val < 128 := (i 1).isLt
  rw [mem_blk_hw]
  intro a
  match a with
  | ⟨0, _⟩ => show win0_4.index (blockOf i) (0 : Fin 2) * 2000 ≤ (i 0).val ∧ (i 0).val < win0_4.index (blockOf i) (0 : Fin 2) * 2000 + 2000; omega
  | ⟨1, _⟩ => show win0_4.index (blockOf i) (1 : Fin 2) * 128 ≤ (i 1).val ∧ (i 1).val < win0_4.index (blockOf i) (1 : Fin 2) * 128 + 128; omega

theorem cover_res (i : S50000x128.Idx) :
    ∃ t : Fin cfg0.N, (cfg0.win 5).flush t = true ∧ i ∈ ((cfg0.win 5).blk t).view.set := by
  refine ⟨blockOf i, flush0_5 _, ?_⟩
  obtain ⟨-, -, -, -, -, -, -, -, -, -, e0, e1⟩ := idx_facts (blockOf i)
  have hv : (blockOf i).val = (i 0).val / 2000 := rfl
  have h0 : (i 0).val < 50000 := (i 0).isLt
  have h1 : (i 1).val < 128 := (i 1).isLt
  rw [mem_blk_res]
  intro a
  match a with
  | ⟨0, _⟩ => show win0_5.index (blockOf i) (0 : Fin 2) * 2000 ≤ (i 0).val ∧ (i 0).val < win0_5.index (blockOf i) (0 : Fin 2) * 2000 + 2000; omega
  | ⟨1, _⟩ => show win0_5.index (blockOf i) (1 : Fin 2) * 128 ≤ (i 1).val ∧ (i 1).val < win0_5.index (blockOf i) (1 : Fin 2) * 128 + 128; omega

/-- After the kernel, its first result is the projection of the feature matrix it was given. -/
theorem final_hw (c : Dev nD) :
    (dat0 V c).arrAt 4 cfg0.N = proj (V c main_arg0 : Mat 50000 1024) (V c main_arg3 : Mat 1024 128) :=
  (dat0 V c).arrAt_eq_of_cover 4 _ (fun t _ => flushed_hw V c t) cover_hw

/-- After the kernel, its second result is the residual branch of the feature matrix it was given. -/
theorem final_res (c : Dev nD) :
    (dat0 V c).arrAt 5 cfg0.N
      = resid (V c main_arg0 : Mat 50000 1024) (V c main_arg5 : Mat 1024 128) (V c main_call0_v0 : Mat 1 128) :=
  (dat0 V c).arrAt_eq_of_cover 5 _ (fun t _ => flushed_res V c t) cover_res

end Cert.Gcn.Region0

end
-- ==== Proof.Region1.lean ====
/-
  The second kernel's result as a whole-array function of the arrays it is given.

  The kernel walks 25 blocks of 2000 node rows.  At block t it reads rows 2000 t … 2000 t + 1999 of the residual array
  and of the aggregate and the whole of five rows (bias, scale, shift, mean, variance), and writes the same rows of its
  result: the join of the two blocks, normalised.  The join is pointwise in the node rows, so the 25 written blocks
  together are the join of the whole arrays.
-/
import proofs.«170640_j80590766342785_2_alg».proof.Proof.Gen.KernelIdeal.Frame
import proofs.«170640_j80590766342785_2_alg».proof.Proof.Payloads
import Idealize.ShloMosaic.Lib.Pipeline.Value

set_option maxRecDepth 16384

noncomputable section

open scoped BigOperators

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: a window that moves with the node rows at block row t, a window that
    holds a whole weight or row at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of block t is node row 2000 t + p. -/
def nodeRow (t : Fin cfg1.N) (p : Fin 2000) : Fin 50000 :=
  ⟨t.val * 2000 + p.val, by have h := t.isLt; have hN : cfg1.N = 25 := N_1; have := p.isLt; omega⟩

/-- The residual block at point t is rows 2000 t … of the residual array. -/
theorem read_res (c : Dev nD) (t : Fin cfg1.N) (p : Fin 2000) (q : Fin 128) :
    iblk1 V c 0 t (ix2 p q) = V c main_call0_v1_1 (ix2 (nodeRow t p) q) := by
  obtain ⟨e0, e1, -⟩ := idx_facts t
  show V c main_call0_v1_1 (((cfg1.win 0).blk t).view.emb (ix2 p q)) = V c main_call0_v1_1 (ix2 (nodeRow t p) q)
  refine congrArg (V c main_call0_v1_1) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * q.val = q.val; omega

/-- The aggregate block at point t is rows 2000 t … of the aggregate. -/
theorem read_agg (c : Dev nD) (t : Fin cfg1.N) (p : Fin 2000) (q : Fin 128) :
    iblk1 V c 1 t (ix2 p q) = V c main_call0_v12 (ix2 (nodeRow t p) q) := by
  obtain ⟨-, -, e0, e1, -⟩ := idx_facts t
  show V c main_call0_v12 (((cfg1.win 1).blk t).view.emb (ix2 p q)) = V c main_call0_v12 (ix2 (nodeRow t p) q)
  refine congrArg (V c main_call0_v12) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * q.val = q.val; omega

/-- The bias row's block at any point is the row. -/
theorem read_b (c : Dev nD) (t : Fin cfg1.N) (k : Fin 1) (q : Fin 128) :
    iblk1 V c 2 t (ix2 k q) = V c main_call0_v13 (ix2 k q) := by
  obtain ⟨-, -, -, -, e0, e1, -⟩ := idx_facts t
  show V c main_call0_v13 (((cfg1.win 2).blk t).view.emb (ix2 k q)) = V c main_call0_v13 (ix2 k q)
  refine congrArg (V c main_call0_v13) (funext fun a => Fin.ext ?_)
  match a with
  | ⟨0, _⟩ => show win1_2.index t (0 : Fin 2) * 1 + 1 * k.val = k.val; omega
  | ⟨1, _⟩ => show win1_2.index t (1 : Fin 2) * 128 + 1 * q.val = q.val; omega

/-- The scale row's block at any point is the row. -/
theorem read_gamma (c : Dev nD) (t : Fin cfg1.N) (k : Fin 1) (q : Fin 128) :
    iblk1 V c 3 t (ix2 k q) = V c main_call0_v14 (ix2 k q) := by
  obtain ⟨-, -, -, -, -, -, e0, e1, -⟩ := idx_facts t
  show V c main_call0_v14 (((cfg1.win 3).blk t).view.emb (ix2 k q)) = V c main_call0_v14 (ix2 k q)
  refine congrArg (V c main_call0_v14) (funext fun a => Fin.ext ?_)
  match a with
  | ⟨0, _⟩ => show win1_3.index t (0 : Fin 2) * 1 + 1 * k.val = k.val; omega
  | ⟨1, _⟩ => show win1_3.index t (1 : Fin 2) * 128 + 1 * q.val = q.val; omega

/-- The shift row's block at any point is the row. -/
theorem read_beta (c : Dev nD) (t : Fin cfg1.N) (k : Fin 1) (q : Fin 128) :
    iblk1 V c 4 t (ix2 k q) = V c main_call0_v15 (ix2 k q) := by
  obtain ⟨-, -, -, -, -, -, -, -, e0, e1, -⟩ := idx_facts t
  show V c main_call0_v15 (((cfg1.win 4).blk t).view.emb (ix2 k q)) = V c main_call0_v15 (ix2 k q)
  refine congrArg (V c main_call0_v15) (funext fun a => Fin.ext ?_)
  match a with
  | ⟨0, _⟩ => show win1_4.index t (0 : Fin 2) * 1 + 1 * k.val = k.val; omega
  | ⟨1, _⟩ => show win1_4.index t (1 : Fin 2) * 128 + 1 * q.val = q.val; omega

/-- The mean row's block at any point is the row. -/
theorem read_mean (c : Dev nD) (t : Fin cfg1.N) (k : Fin 1) (q : Fin 128) :
    iblk1 V c 5 t (ix2 k q) = V c main_call0_v16 (ix2 k q) := by
  obtain ⟨-, -, -, -, -, -, -, -, -, -, e0, e1, -⟩ := idx_facts t
  show V c main_call0_v16 (((cfg1.win 5).blk t).view.emb (ix2 k q)) = V c main_call0_v16 (ix2 k q)
  refine congrArg (V c main_call0_v16) (funext fun a => Fin.ext ?_)
  match a with
  | ⟨0, _⟩ => show win1_5.index t (0 : Fin 2) * 1 + 1 * k.val = k.val; omega
  | ⟨1, _⟩ => show win1_5.index t (1 : Fin 2) * 128 + 1 * q.val = q.val; omega

/-- The variance row's block at any point is the row. -/
theorem read_var (c : Dev nD) (t : Fin cfg1.N) (k : Fin 1) (q : Fin 128) :
    iblk1 V c 6 t (ix2 k q) = V c main_call0_v17 (ix2 k q) := by
  obtain ⟨-, -, -, -, -, -, -, -, -, -, -, -, e0, e1, -⟩ := idx_facts t
  show V c main_call0_v17 (((cfg1.win 6).blk t).view.emb (ix2 k q)) = V c main_call0_v17 (ix2 k q)
  refine congrArg (V c main_call0_v17) (funext fun a => Fin.ext ?_)
  match a with
  | ⟨0, _⟩ => show win1_6.index t (0 : Fin 2) * 1 + 1 * k.val = k.val; omega
  | ⟨1, _⟩ => show win1_6.index t (1 : Fin 2) * 128 + 1 * q.val = q.val; omega

/-- Entry (p, q) of block t of the result is entry (2000 t + p, q) of the array. -/
theorem emb_out (t : Fin cfg1.N) (p : Fin 2000) (q : Fin 128) :
    ((cfg1.win 7).blk t).view.emb (ix2 p q) = ix2 (nodeRow t p) q := by
  obtain ⟨-, -, -, -, -, -, -, -, -, -, -, -, -, -, e0, e1⟩ := idx_facts t
  refine funext fun a => Fin.ext ?_
  match a with
  | ⟨0, _⟩ => show win1_7.index t (0 : Fin 2) * 2000 + 1 * p.val = t.val * 2000 + p.val; omega
  | ⟨1, _⟩ => show win1_7.index t (1 : Fin 2) * 128 + 1 * q.val = q.val; omega

/-- An index of the result lies in block t iff each coordinate lies in the block's range. -/
theorem mem_blk_out (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_call0_v18).slice (win1_7.rect t)).set ↔ _
  rw [View.set_slice_whole, Rect.mem_set_unit]
  exact Iff.rfl

/-- Node row r lies in block r / 2000, and the 25 blocks cover the array. -/
theorem cover_out (i : S50000x128.Idx) :
    ∃ t : Fin cfg1.N, (cfg1.win 7).flush t = true ∧ i ∈ ((cfg1.win 7).blk t).view.set := by
  have h0 : (i 0).val < 50000 := (i 0).isLt
  have h1 : (i 1).val < 128 := (i 1).isLt
  have hN : cfg1.N = 25 := N_1
  let t : Fin cfg1.N := ⟨(i 0).val / 2000, by omega⟩
  refine ⟨t, flush1_7 _, ?_⟩
  obtain ⟨-, -, -, -, -, -, -, -, -, -, -, -, -, -, e0, e1⟩ := idx_facts t
  have hv : t.val = (i 0).val / 2000 := rfl
  rw [mem_blk_out]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The join at (p, q) of the blocks at point t is the join of the whole arrays at (2000 t + p, q). -/
theorem combineAt_blk (c : Dev nD) (t : Fin cfg1.N) (p : Fin 2000) (q : Fin 128) :
    combineAt (iblk1 V c 0 t : Mat 2000 128) (iblk1 V c 1 t) (iblk1 V c 2 t) (iblk1 V c 3 t) (iblk1 V c 4 t) (iblk1 V c 5 t)
        (iblk1 V c 6 t) p q
      = combineAt (V c main_call0_v1_1 : Mat 50000 128) (V c main_call0_v12 : Mat 50000 128) (V c main_call0_v13 : Mat 1 128)
        (V c main_call0_v14 : Mat 1 128) (V c main_call0_v15 : Mat 1 128) (V c main_call0_v16 : Mat 1 128) (V c main_call0_v17 : Mat 1 128) (nodeRow t p) q := by
  unfold combineAt
  rw [read_res V c t p q, read_agg V c t p q, read_b V c t 0 q, read_gamma V c t 0 q, read_beta V c t 0 q,
    read_mean V c t 0 q, read_var V c t 0 q]

/-- What point t writes back is block t of the join of the whole arrays. -/
theorem flushed_out (c : Dev nD) (t : Fin cfg1.N) :
    (dat1 V c).flushed 7 t
      = ((cfg1.win 7).blk t).view.read (Elt Ideal) (combine (V c main_call0_v1_1 : Mat 50000 128) (V c main_call0_v12 : Mat 50000 128) (V c main_call0_v13 : Mat 1 128)
        (V c main_call0_v14 : Mat 1 128) (V c main_call0_v15 : Mat 1 128) (V c main_call0_v16 : Mat 1 128) (V c main_call0_v17 : Mat 1 128)) := by
  show (cfg1.win 7).cut (grid1.coords t) ((dat1 V c).after 7 t) = _
  rw [after1_7]
  unfold out1_7
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k1_pay1 (iblk1 V c 1 t) (iblk1 V c 2 t) (iblk1 V c 0 t) (iblk1 V c 5 t) (iblk1 V c 6 t) (iblk1 V c 3 t) (iblk1 V c 4 t) (ix2 p q)
    = combine (V c main_call0_v1_1 : Mat 50000 128) (V c main_call0_v12 : Mat 50000 128) (V c main_call0_v13 : Mat 1 128)
        (V c main_call0_v14 : Mat 1 128) (V c main_call0_v15 : Mat 1 128) (V c main_call0_v16 : Mat 1 128) (V c main_call0_v17 : Mat 1 128) (((cfg1.win 7).blk t).view.emb (ix2 p q))
  rw [emb_out t p q, combine_apply]
  exact (pay1_combine (iblk1 V c 1 t) (iblk1 V c 2 t) (iblk1 V c 0 t) (iblk1 V c 5 t) (iblk1 V c 6 t) (iblk1 V c 3 t)
    (iblk1 V c 4 t) p q).trans (combineAt_blk V c t p q)

/-- After the kernel, its result is the join of the residual array and the aggregate it was given. -/
theorem final_out (c : Dev nD) :
    (dat1 V c).arrAt 7 cfg1.N = combine (V c main_call0_v1_1 : Mat 50000 128) (V c main_call0_v12 : Mat 50000 128) (V c main_call0_v13 : Mat 1 128)
        (V c main_call0_v14 : Mat 1 128) (V c main_call0_v15 : Mat 1 128) (V c main_call0_v16 : Mat 1 128) (V c main_call0_v17 : Mat 1 128) :=
  (dat1 V c).arrAt_eq_of_cover 7 _ (fun t _ => flushed_out V c t) cover_out

end Cert.Gcn.Region1

end
-- ==== Proof.Region2.lean ====
/-
  The third kernel's two result arrays as whole-array functions of the arrays it is given: the second layer's projection
  and residual branch of the first layer's output (128 features per node), block by block of 2000 node rows, exactly as
  the first kernel does for the input features.
-/
import proofs.«170640_j80590766342785_2_alg».proof.Proof.Gen.KernelIdeal.Frame
import proofs.«170640_j80590766342785_2_alg».proof.Proof.Payloads
import Idealize.ShloMosaic.Lib.Pipeline.Value

set_option maxRecDepth 16384

noncomputable section

open scoped BigOperators

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: a window that moves with the node rows at block row t, a window that
    holds a whole weight or row at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of block t is node row 2000 t + p. -/
def nodeRow (t : Fin cfg2.N) (p : Fin 2000) : Fin 50000 :=
  ⟨t.val * 2000 + p.val, by have h := t.isLt; have hN : cfg2.N = 25 := N_2; have := p.isLt; omega⟩

/-- The features' block at point t is rows 2000 t … of the feature array. -/
theorem read_x (c : Dev nD) (t : Fin cfg2.N) (p : Fin 2000) (q : Fin 128) :
    iblk2 V c 0 t (ix2 p q) = V c main_call0_v18 (ix2 (nodeRow t p) q) := by
  obtain ⟨e0, e1, -⟩ := idx_facts t
  show V c main_call0_v18 (((cfg2.win 0).blk t).view.emb (ix2 p q)) = V c main_call0_v18 (ix2 (nodeRow t p) q)
  refine congrArg (V c main_call0_v18) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * q.val = q.val; omega

/-- The first weight's block at any point is the weight. -/
theorem read_w (c : Dev nD) (t : Fin cfg2.N) (k : Fin 128) (q : Fin 128) :
    iblk2 V c 1 t (ix2 k q) = V c main_arg11 (ix2 k q) := by
  obtain ⟨-, -, e0, e1, -⟩ := idx_facts t
  show V c main_arg11 (((cfg2.win 1).blk t).view.emb (ix2 k q)) = V c main_arg11 (ix2 k q)
  refine congrArg (V c main_arg11) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The second weight's block at any point is the weight. -/
theorem read_wr (c : Dev nD) (t : Fin cfg2.N) (k : Fin 128) (q : Fin 128) :
    iblk2 V c 2 t (ix2 k q) = V c main_arg13 (ix2 k q) := by
  obtain ⟨-, -, -, -, e0, e1, -⟩ := idx_facts t
  show V c main_arg13 (((cfg2.win 2).blk t).view.emb (ix2 k q)) = V c main_arg13 (ix2 k q)
  refine congrArg (V c main_arg13) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias row's block at any point is the row. -/
theorem read_br (c : Dev nD) (t : Fin cfg2.N) (k : Fin 1) (q : Fin 128) :
    iblk2 V c 3 t (ix2 k q) = V c main_call0_v19 (ix2 k q) := by
  obtain ⟨-, -, -, -, -, -, e0, e1, -⟩ := idx_facts t
  show V c main_call0_v19 (((cfg2.win 3).blk t).view.emb (ix2 k q)) = V c main_call0_v19 (ix2 k q)
  refine congrArg (V c main_call0_v19) (funext fun a => Fin.ext ?_)
  match a with
  | ⟨0, _⟩ => show win2_3.index t (0 : Fin 2) * 1 + 1 * k.val = k.val; omega
  | ⟨1, _⟩ => show win2_3.index t (1 : Fin 2) * 128 + 1 * q.val = q.val; omega

/-- Entry (p, q) of block t of the result is entry (2000 t + p, q) of the array. -/
theorem emb_hw (t : Fin cfg2.N) (p : Fin 2000) (q : Fin 128) :
    ((cfg2.win 4).blk t).view.emb (ix2 p q) = ix2 (nodeRow t p) q := by
  obtain ⟨-, -, -, -, -, -, -, -, e0, e1, -⟩ := idx_facts t
  refine funext fun a => Fin.ext ?_
  match a with
  | ⟨0, _⟩ => show win2_4.index t (0 : Fin 2) * 2000 + 1 * p.val = t.val * 2000 + p.val; omega
  | ⟨1, _⟩ => show win2_4.index t (1 : Fin 2) * 128 + 1 * q.val = q.val; omega

/-- An index of the result lies in block t iff each coordinate lies in the block's range. -/
theorem mem_blk_hw (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_call0_v20_0).slice (win2_4.rect t)).set ↔ _
  rw [View.set_slice_whole, Rect.mem_set_unit]
  exact Iff.rfl

/-- Node row r lies in block r / 2000, and the 25 blocks cover the array. -/
theorem cover_hw (i : S50000x128.Idx) :
    ∃ t : Fin cfg2.N, (cfg2.win 4).flush t = true ∧ i ∈ ((cfg2.win 4).blk t).view.set := by
  have h0 : (i 0).val < 50000 := (i 0).isLt
  have h1 : (i 1).val < 128 := (i 1).isLt
  have hN : cfg2.N = 25 := N_2
  let t : Fin cfg2.N := ⟨(i 0).val / 2000, by omega⟩
  refine ⟨t, flush2_4 _, ?_⟩
  obtain ⟨-, -, -, -, -, -, -, -, e0, e1, -⟩ := idx_facts t
  have hv : t.val = (i 0).val / 2000 := rfl
  rw [mem_blk_hw]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- Entry (p, q) of block t of the result is entry (2000 t + p, q) of the array. -/
theorem emb_res (t : Fin cfg2.N) (p : Fin 2000) (q : Fin 128) :
    ((cfg2.win 5).blk t).view.emb (ix2 p q) = ix2 (nodeRow t p) q := by
  obtain ⟨-, -, -, -, -, -, -, -, -, -, e0, e1⟩ := idx_facts t
  refine funext fun a => Fin.ext ?_
  match a with
  | ⟨0, _⟩ => show win2_5.index t (0 : Fin 2) * 2000 + 1 * p.val = t.val * 2000 + p.val; omega
  | ⟨1, _⟩ => show win2_5.index t (1 : Fin 2) * 128 + 1 * q.val = q.val; omega

/-- An index of the result lies in block t iff each coordinate lies in the block's range. -/
theorem mem_blk_res (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_call0_v20_1).slice (win2_5.rect t)).set ↔ _
  rw [View.set_slice_whole, Rect.mem_set_unit]
  exact Iff.rfl

/-- Node row r lies in block r / 2000, and the 25 blocks cover the array. -/
theorem cover_res (i : S50000x128.Idx) :
    ∃ t : Fin cfg2.N, (cfg2.win 5).flush t = true ∧ i ∈ ((cfg2.win 5).blk t).view.set := by
  have h0 : (i 0).val < 50000 := (i 0).isLt
  have h1 : (i 1).val < 128 := (i 1).isLt
  have hN : cfg2.N = 25 := N_2
  let t : Fin cfg2.N := ⟨(i 0).val / 2000, by omega⟩
  refine ⟨t, flush2_5 _, ?_⟩
  obtain ⟨-, -, -, -, -, -, -, -, -, -, e0, e1⟩ := idx_facts t
  have hv : t.val = (i 0).val / 2000 := rfl
  rw [mem_blk_res]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- What point t writes back to the first result is block t of the projection of the whole feature array. -/
theorem flushed_hw (c : Dev nD) (t : Fin cfg2.N) :
    (dat2 V c).flushed 4 t
      = ((cfg2.win 4).blk t).view.read (Elt Ideal) (proj (V c main_call0_v18 : Mat 50000 128) (V c main_arg11 : Mat 128 128)) := by
  show (cfg2.win 4).cut (grid2.coords t) ((dat2 V c).after 4 t) = _
  rw [after2_4]
  unfold out2_4
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k2_pay2 (iblk2 V c 0 t) (iblk2 V c 1 t) (ix2 p q)
    = proj (V c main_call0_v18 : Mat 50000 128) (V c main_arg11 : Mat 128 128) (((cfg2.win 4).blk t).view.emb (ix2 p q))
  rw [emb_hw t p q, proj_apply]
  refine (pay2_proj (iblk2 V c 0 t) (iblk2 V c 1 t) p q).trans ?_
  unfold projAt
  refine Finset.sum_congr rfl fun k _ => ?_
  rw [read_x V c t p k, read_w V c t k q]

/-- What point t writes back to the second result is block t of the residual branch of the whole feature array. -/
theorem flushed_res (c : Dev nD) (t : Fin cfg2.N) :
    (dat2 V c).flushed 5 t
      = ((cfg2.win 5).blk t).view.read (Elt Ideal)
          (resid (V c main_call0_v18 : Mat 50000 128) (V c main_arg13 : Mat 128 128) (V c main_call0_v19 : Mat 1 128)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay3 (iblk2 V c 0 t) (iblk2 V c 2 t) (iblk2 V c 3 t) (ix2 p q)
    = resid (V c main_call0_v18 : Mat 50000 128) (V c main_arg13 : Mat 128 128) (V c main_call0_v19 : Mat 1 128)
        (((cfg2.win 5).blk t).view.emb (ix2 p q))
  rw [emb_res t p q, resid_apply]
  refine (pay2_resid (iblk2 V c 0 t) (iblk2 V c 2 t) (iblk2 V c 3 t) p q).trans ?_
  unfold residAt projAt
  rw [read_br V c t 0 q]
  refine congrArg (fun s => max (s + V c main_call0_v19 (ix2 (0 : Fin 1) q)) 0) (Finset.sum_congr rfl fun k _ => ?_)
  rw [read_x V c t p k, read_wr V c t k q]

/-- After the kernel, its first result is the projection of the feature array it was given. -/
theorem final_hw (c : Dev nD) :
    (dat2 V c).arrAt 4 cfg2.N = proj (V c main_call0_v18 : Mat 50000 128) (V c main_arg11 : Mat 128 128) :=
  (dat2 V c).arrAt_eq_of_cover 4 _ (fun t _ => flushed_hw V c t) cover_hw

/-- After the kernel, its second result is the residual branch of the feature array it was given. -/
theorem final_res (c : Dev nD) :
    (dat2 V c).arrAt 5 cfg2.N
      = resid (V c main_call0_v18 : Mat 50000 128) (V c main_arg13 : Mat 128 128) (V c main_call0_v19 : Mat 1 128) :=
  (dat2 V c).arrAt_eq_of_cover 5 _ (fun t _ => flushed_res V c t) cover_res

end Cert.Gcn.Region2

end
-- ==== Proof.Region3.lean ====
/-
  The fourth kernel's result as a whole-array function of the arrays it is given.

  At block t the kernel joins and normalises rows 2000 t … 2000 t + 1999 of the second layer's residual array and
  aggregate, multiplies the joined block by the classifier's matrix, adds the classifier's bias row, and takes the softmax
  of each of the block's rows.  Every step acts on each node row by itself, so the 25 written blocks together are the
  softmax of the logits of the join of the whole arrays.
-/
import proofs.«170640_j80590766342785_2_alg».proof.Proof.Gen.KernelIdeal.Frame
import proofs.«170640_j80590766342785_2_alg».proof.Proof.Payloads
import Idealize.ShloMosaic.Lib.Pipeline.Value

set_option maxRecDepth 16384

noncomputable section

open scoped BigOperators

namespace Cert.Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: a window that moves with the node rows at block row t, a window that
    holds a whole weight or row at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- Row p of block t is node row 2000 t + p. -/
def nodeRow (t : Fin cfg3.N) (p : Fin 2000) : Fin 50000 :=
  ⟨t.val * 2000 + p.val, by have h := t.isLt; have hN : cfg3.N = 25 := N_3; have := p.isLt; omega⟩

/-- The residual block at point t is rows 2000 t … of the residual array. -/
theorem read_res (c : Dev nD) (t : Fin cfg3.N) (p : Fin 2000) (q : Fin 128) :
    iblk3 V c 0 t (ix2 p q) = V c main_call0_v20_1 (ix2 (nodeRow t p) q) := by
  obtain ⟨e0, e1, -⟩ := idx_facts t
  show V c main_call0_v20_1 (((cfg3.win 0).blk t).view.emb (ix2 p q)) = V c main_call0_v20_1 (ix2 (nodeRow t p) q)
  refine congrArg (V c main_call0_v20_1) (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * q.val = q.val; omega

/-- The aggregate block at point t is rows 2000 t … of the aggregate. -/
theorem read_agg (c : Dev nD) (t : Fin cfg3.N) (p : Fin 2000) (q : Fin 128) :
    iblk3 V c 1 t (ix2 p q) = V c main_call0_v31 (ix2 (nodeRow t p) q) := by
  obtain ⟨-, -, e0, e1, -⟩ := idx_facts t
  show V c main_call0_v31 (((cfg3.win 1).blk t).view.emb (ix2 p q)) = V c main_call0_v31 (ix2 (nodeRow t p) q)
  refine congrArg (V c main_call0_v31) (funext fun a => Fin.ext ?_)
  match a with
  | ⟨0, _⟩ => show win3_1.index t (0 : Fin 2) * 2000 + 1 * p.val = t.val * 2000 + p.val; omega
  | ⟨1, _⟩ => show win3_1.index t (1 : Fin 2) * 128 + 1 * q.val = q.val; omega

/-- The bias row's block at any point is the row. -/
theorem read_b (c : Dev nD) (t : Fin cfg3.N) (k : Fin 1) (q : Fin 128) :
    iblk3 V c 2 t (ix2 k q) = V c main_call0_v32 (ix2 k q) := by
  obtain ⟨-, -, -, -, e0, e1, -⟩ := idx_facts t
  show V c main_call0_v32 (((cfg3.win 2).blk t).view.emb (ix2 k q)) = V c main_call0_v32 (ix2 k q)
  refine congrArg (V c main_call0_v32) (funext fun a => Fin.ext ?_)
  match a with
  | ⟨0, _⟩ => show win3_2.index t (0 : Fin 2) * 1 + 1 * k.val = k.val; omega
  | ⟨1, _⟩ => show win3_2.index t (1 : Fin 2) * 128 + 1 * q.val = q.val; omega

/-- The scale row's block at any point is the row. -/
theorem read_gamma (c : Dev nD) (t : Fin cfg3.N) (k : Fin 1) (q : Fin 128) :
    iblk3 V c 3 t (ix2 k q) = V c main_call0_v33 (ix2 k q) := by
  obtain ⟨-, -, -, -, -, -, e0, e1, -⟩ := idx_facts t
  show V c main_call0_v33 (((cfg3.win 3).blk t).view.emb (ix2 k q)) = V c main_call0_v33 (ix2 k q)
  refine congrArg (V c main_call0_v33) (funext fun a => Fin.ext ?_)
  match a with
  | ⟨0, _⟩ => show win3_3.index t (0 : Fin 2) * 1 + 1 * k.val = k.val; omega
  | ⟨1, _⟩ => show win3_3.index t (1 : Fin 2) * 128 + 1 * q.val = q.val; omega

/-- The shift row's block at any point is the row. -/
theorem read_beta (c : Dev nD) (t : Fin cfg3.N) (k : Fin 1) (q : Fin 128) :
    iblk3 V c 4 t (ix2 k q) = V c main_call0_v34 (ix2 k q) := by
  obtain ⟨-, -, -, -, -, -, -, -, e0, e1, -⟩ := idx_facts t
  show V c main_call0_v34 (((cfg3.win 4).blk t).view.emb (ix2 k q)) = V c main_call0_v34 (ix2 k q)
  refine congrArg (V c main_call0_v34) (funext fun a => Fin.ext ?_)
  match a with
  | ⟨0, _⟩ => show win3_4.index t (0 : Fin 2) * 1 + 1 * k.val = k.val; omega
  | ⟨1, _⟩ => show win3_4.index t (1 : Fin 2) * 128 + 1 * q.val = q.val; omega

/-- The mean row's block at any point is the row. -/
theorem read_mean (c : Dev nD) (t : Fin cfg3.N) (k : Fin 1) (q : Fin 128) :
    iblk3 V c 5 t (ix2 k q) = V c main_call0_v35 (ix2 k q) := by
  obtain ⟨-, -, -, -, -, -, -, -, -, -, e0, e1, -⟩ := idx_facts t
  show V c main_call0_v35 (((cfg3.win 5).blk t).view.emb (ix2 k q)) = V c main_call0_v35 (ix2 k q)
  refine congrArg (V c main_call0_v35) (funext fun a => Fin.ext ?_)
  match a with
  | ⟨0, _⟩ => show win3_5.index t (0 : Fin 2) * 1 + 1 * k.val = k.val; omega
  | ⟨1, _⟩ => show win3_5.index t (1 : Fin 2) * 128 + 1 * q.val = q.val; omega

/-- The variance row's block at any point is the row. -/
theorem read_var (c : Dev nD) (t : Fin cfg3.N) (k : Fin 1) (q : Fin 128) :
    iblk3 V c 6 t (ix2 k q) = V c main_call0_v36 (ix2 k q) := by
  obtain ⟨-, -, -, -, -, -, -, -, -, -, -, -, e0, e1, -⟩ := idx_facts t
  show V c main_call0_v36 (((cfg3.win 6).blk t).view.emb (ix2 k q)) = V c main_call0_v36 (ix2 k q)
  refine congrArg (V c main_call0_v36) (funext fun a => Fin.ext ?_)
  match a with
  | ⟨0, _⟩ => show win3_6.index t (0 : Fin 2) * 1 + 1 * k.val = k.val; omega
  | ⟨1, _⟩ => show win3_6.index t (1 : Fin 2) * 128 + 1 * q.val = q.val; omega

/-- The classifier matrix's block at any point is the matrix. -/
theorem read_wd (c : Dev nD) (t : Fin cfg3.N) (k : Fin 128) (q : Fin 2) :
    iblk3 V c 7 t (ix2 k q) = V c main_arg19 (ix2 k q) := by
  obtain ⟨-, -, -, -, -, -, -, -, -, -, -, -, -, -, e0, e1, -⟩ := idx_facts t
  show V c main_arg19 (((cfg3.win 7).blk t).view.emb (ix2 k q)) = V c main_arg19 (ix2 k q)
  refine congrArg (V c main_arg19) (funext fun a => Fin.ext ?_)
  match a with
  | ⟨0, _⟩ => show win3_7.index t (0 : Fin 2) * 128 + 1 * k.val = k.val; omega
  | ⟨1, _⟩ => show win3_7.index t (1 : Fin 2) * 2 + 1 * q.val = q.val; omega

/-- The classifier bias row's block at any point is the row. -/
theorem read_bd (c : Dev nD) (t : Fin cfg3.N) (k : Fin 1) (q : Fin 2) :
    iblk3 V c 8 t (ix2 k q) = V c main_call0_v37 (ix2 k q) := by
  obtain ⟨-, -, -, -, -, -, -, -, -, -, -, -, -, -, -, -, e0, e1, -⟩ := idx_facts t
  show V c main_call0_v37 (((cfg3.win 8).blk t).view.emb (ix2 k q)) = V c main_call0_v37 (ix2 k q)
  refine congrArg (V c main_call0_v37) (funext fun a => Fin.ext ?_)
  match a with
  | ⟨0, _⟩ => show win3_8.index t (0 : Fin 2) * 1 + 1 * k.val = k.val; omega
  | ⟨1, _⟩ => show win3_8.index t (1 : Fin 2) * 2 + 1 * q.val = q.val; omega

/-- Entry (p, q) of block t of the result is entry (2000 t + p, q) of the array. -/
theorem emb_out (t : Fin cfg3.N) (p : Fin 2000) (q : Fin 2) :
    ((cfg3.win 9).blk t).view.emb (ix2 p q) = ix2 (nodeRow t p) q := by
  obtain ⟨-, -, -, -, -, -, -, -, -, -, -, -, -, -, -, -, -, -, e0, e1⟩ := idx_facts t
  refine funext fun a => Fin.ext ?_
  match a with
  | ⟨0, _⟩ => show win3_9.index t (0 : Fin 2) * 2000 + 1 * p.val = t.val * 2000 + p.val; omega
  | ⟨1, _⟩ => show win3_9.index t (1 : Fin 2) * 2 + 1 * q.val = q.val; omega

/-- An index of the result lies in block t iff each coordinate lies in the block's range. -/
theorem mem_blk_out (t : Fin cfg3.N) (i : S50000x2.Idx) :
    i ∈ ((cfg3.win 9).blk t).view.set ↔ ∀ a : Fin 2, win3_9.index t a * S2000x2.size a ≤ (i a).val
      ∧ (i a).val < win3_9.index t a * S2000x2.size a + S2000x2.size a := by
  show i ∈ ((View.whole main_v0).slice (win3_9.rect t)).set ↔ _
  rw [View.set_slice_whole, Rect.mem_set_unit]
  exact Iff.rfl

/-- Node row r lies in block r / 2000, and the 25 blocks cover the array. -/
theorem cover_out (i : S50000x2.Idx) :
    ∃ t : Fin cfg3.N, (cfg3.win 9).flush t = true ∧ i ∈ ((cfg3.win 9).blk t).view.set := by
  have h0 : (i 0).val < 50000 := (i 0).isLt
  have h1 : (i 1).val < 2 := (i 1).isLt
  have hN : cfg3.N = 25 := N_3
  let t : Fin cfg3.N := ⟨(i 0).val / 2000, by omega⟩
  refine ⟨t, flush3_9 _, ?_⟩
  obtain ⟨-, -, -, -, -, -, -, -, -, -, -, -, -, -, -, -, -, -, e0, e1⟩ := idx_facts t
  have hv : t.val = (i 0).val / 2000 := rfl
  rw [mem_blk_out]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 2 ≤ (i 1).val ∧ (i 1).val < win3_9.index t (1 : Fin 2) * 2 + 2; omega

/-- The join at (p, q) of the blocks at point t is the join of the whole arrays at (2000 t + p, q). -/
theorem combineAt_blk (c : Dev nD) (t : Fin cfg3.N) (p : Fin 2000) (q : Fin 128) :
    combineAt (iblk3 V c 0 t : Mat 2000 128) (iblk3 V c 1 t) (iblk3 V c 2 t) (iblk3 V c 3 t) (iblk3 V c 4 t) (iblk3 V c 5 t)
        (iblk3 V c 6 t) p q
      = combineAt (V c main_call0_v20_1 : Mat 50000 128) (V c main_call0_v31 : Mat 50000 128) (V c main_call0_v32 : Mat 1 128)
        (V c main_call0_v33 : Mat 1 128) (V c main_call0_v34 : Mat 1 128) (V c main_call0_v35 : Mat 1 128) (V c main_call0_v36 : Mat 1 128) (nodeRow t p) q := by
  unfold combineAt
  rw [read_res V c t p q, read_agg V c t p q, read_b V c t 0 q, read_gamma V c t 0 q, read_beta V c t 0 q,
    read_mean V c t 0 q, read_var V c t 0 q]

/-- The logits at (p, q) of the blocks at point t are the logits of the whole arrays at (2000 t + p, q). -/
theorem logits_blk (c : Dev nD) (t : Fin cfg3.N) (p : Fin 2000) (q : Fin 2) :
    logits (combine (iblk3 V c 0 t : Mat 2000 128) (iblk3 V c 1 t) (iblk3 V c 2 t) (iblk3 V c 3 t) (iblk3 V c 4 t)
        (iblk3 V c 5 t) (iblk3 V c 6 t)) (iblk3 V c 7 t) (iblk3 V c 8 t) (ix2 p q)
      = logits (combine (V c main_call0_v20_1 : Mat 50000 128) (V c main_call0_v31 : Mat 50000 128) (V c main_call0_v32 : Mat 1 128)
        (V c main_call0_v33 : Mat 1 128) (V c main_call0_v34 : Mat 1 128) (V c main_call0_v35 : Mat 1 128) (V c main_call0_v36 : Mat 1 128))
          (V c main_arg19 : Mat 128 2) (V c main_call0_v37 : Mat 1 2) (ix2 (nodeRow t p) q) := by
  rw [logits_apply, logits_apply]
  unfold logitsAt projAt
  rw [read_bd V c t 0 q]
  refine congrArg (fun s => s + V c main_call0_v37 (ix2 (0 : Fin 1) q)) (Finset.sum_congr rfl fun k _ => ?_)
  rw [combine_apply, combine_apply, combineAt_blk V c t p k, read_wd V c t k q]

/-- What point t writes back is block t of the softmax of the logits of the join of the whole arrays. -/
theorem flushed_out (c : Dev nD) (t : Fin cfg3.N) :
    (dat3 V c).flushed 9 t
      = ((cfg3.win 9).blk t).view.read (Elt Ideal) (softmax (logits (combine (V c main_call0_v20_1 : Mat 50000 128) (V c main_call0_v31 : Mat 50000 128) (V c main_call0_v32 : Mat 1 128)
        (V c main_call0_v33 : Mat 1 128) (V c main_call0_v34 : Mat 1 128) (V c main_call0_v35 : Mat 1 128) (V c main_call0_v36 : Mat 1 128))
        (V c main_arg19 : Mat 128 2) (V c main_call0_v37 : Mat 1 2))) := by
  show (cfg3.win 9).cut (grid3.coords t) ((dat3 V c).after 9 t) = _
  rw [after3_9]
  unfold out3_9
  rw [View.canon_unit_zero hz]
  simp only [View.ld_unit_zero (S := S2000x128) hz, View.ld_unit_zero (S := S1x128) hz, View.ld_unit_zero (S := S128x2) hz,
    View.ld_unit_zero (S := S1x2) hz]
  funext j
  obtain ⟨p, q, rfl⟩ : ∃ (p : Fin 2000) (q : Fin 2), j = ix2 p q := ⟨j 0, j 1, eq_ix2 j⟩
  show k3_pay1 (k3_pay2 (iblk3 V c 1 t) (iblk3 V c 2 t) (iblk3 V c 0 t) (iblk3 V c 5 t) (iblk3 V c 6 t) (iblk3 V c 3 t)
      (iblk3 V c 4 t) (iblk3 V c 7 t) (iblk3 V c 8 t)) (ix2 p q)
    = (softmax (logits (combine (V c main_call0_v20_1 : Mat 50000 128) (V c main_call0_v31 : Mat 50000 128) (V c main_call0_v32 : Mat 1 128)
        (V c main_call0_v33 : Mat 1 128) (V c main_call0_v34 : Mat 1 128) (V c main_call0_v35 : Mat 1 128) (V c main_call0_v36 : Mat 1 128))
        (V c main_arg19 : Mat 128 2) (V c main_call0_v37 : Mat 1 2))) (((cfg3.win 9).blk t).view.emb (ix2 p q))
  rw [emb_out t p q, softmax_apply]
  refine (pay3_softmax (iblk3 V c 1 t) (iblk3 V c 2 t) (iblk3 V c 0 t) (iblk3 V c 5 t) (iblk3 V c 6 t) (iblk3 V c 3 t)
    (iblk3 V c 4 t) (iblk3 V c 7 t) (iblk3 V c 8 t) p q).trans ?_
  unfold softmaxRowAt
  exact congrArg (fun row : Fin 2 → EReal => SoftmaxRows.softmaxAt row negInf q) (funext fun k => logits_blk V c t p k)

/-- After the kernel, its result is the row softmax of the classifier's logits of the join of the arrays it was given. -/
theorem final_out (c : Dev nD) :
    (dat3 V c).arrAt 9 cfg3.N = softmax (logits (combine (V c main_call0_v20_1 : Mat 50000 128) (V c main_call0_v31 : Mat 50000 128) (V c main_call0_v32 : Mat 1 128)
        (V c main_call0_v33 : Mat 1 128) (V c main_call0_v34 : Mat 1 128) (V c main_call0_v35 : Mat 1 128) (V c main_call0_v36 : Mat 1 128))
        (V c main_arg19 : Mat 128 2) (V c main_call0_v37 : Mat 1 2)) :=
  (dat3 V c).arrAt_eq_of_cover 9 _ (fun t _ => flushed_out V c t) cover_out

end Cert.Gcn.Region3

end
-- ==== Proof.LibSkipWrites.lean ====
/-
  Reading a buffer through host operations that do not write it: for a literal list of operations none of which
  writes the buffer `b`, the contents after the list are the contents before it.
-/
import Idealize.ShloMosaic.Lib.StableHlo.Run

open Idealize.ShloMosaic

/-- Closes `StableHlo.after ops V b = V b` for a literal list `ops` (given by the names to unfold) none of whose
    operations writes `b`: each operation writes one buffer, and that buffer is another one. -/
macro "skip_writes" "[" ls:Lean.Parser.Tactic.simpLemma,* "]" : tactic => `(tactic|
  (refine StableHlo.after_of_forall_not_mem _ _ (List.forall_iff_forall_mem.mp ?_)
   simp only [$ls,*, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.Chain.lean ====
/-
  The idealized kernel program's result as the network's function of the arrays it is launched with.

  The program is four kernels with host steps between them.  Following the contents of the buffers from the launch:
  the host steps lay each vector as a row and run the edge step; every kernel reads arrays that are either launch
  arrays no step has written, rows laid from them, or results of the kernels and edge steps before it.  Reading each
  kernel's result as the whole-array function proved for it, the first two kernels and the edge step between them
  give the first layer's output, the third kernel and the second edge step the second layer's projection, residual
  branch and aggregate, and the fourth kernel the row softmax of the classifier's logits of the second layer's join.
-/
import proofs.«170640_j80590766342785_2_alg».proof.Proof.Gen.KernelIdeal.Frame
import proofs.«170640_j80590766342785_2_alg».proof.Proof.Region0
import proofs.«170640_j80590766342785_2_alg».proof.Proof.Region1
import proofs.«170640_j80590766342785_2_alg».proof.Proof.Region2
import proofs.«170640_j80590766342785_2_alg».proof.Proof.Region3
import proofs.«170640_j80590766342785_2_alg».proof.Proof.Edges
import proofs.«170640_j80590766342785_2_alg».proof.Proof.Network
import proofs.«170640_j80590766342785_2_alg».proof.Proof.LibSkipWrites
import proofs.«170640_j80590766342785_2_alg».proof.Proof.LibCallBuffers
import Idealize.ShloMosaic.Lib.ValueLayout
import Idealize.ShloMosaic.Lib.StableHlo.Run

set_option maxRecDepth 16384

noncomputable section

namespace Cert.Gcn.Chain

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-- A vector of 128 entries reshaped to one row is the vector laid as a row. -/
theorem row128 (v : (⟨S128, .f32⟩ : BufTy).Contents (Elt Ideal)) :
    (shapeCast S1x128 v Facts₀.shapeCasts_S128_S1x128 : Mat 1 128) = rowOf v := by
  funext i
  obtain ⟨z, q, rfl⟩ : ∃ (z : Fin 1) (q : Fin 128), i = ix2 z q := ⟨i 0, i 1, eq_ix2 i⟩
  exact shapeCast_a_1a_apply v _ z q

/-- The same for a vector of two entries. -/
theorem row2 (v : (⟨S2, .f32⟩ : BufTy).Contents (Elt Ideal)) :
    (shapeCast S1x2 v Facts₀.shapeCasts_S2_S1x2 : Mat 1 2) = rowOf v := by
  funext i
  obtain ⟨z, q, rfl⟩ : ∃ (z : Fin 1) (q : Fin 2), i = ix2 z q := ⟨i 0, i 1, eq_ix2 i⟩
  exact shapeCast_a_1a_apply v _ z q

/-! ## A launch array that no host step writes and no kernel writes back is read unchanged at every boundary -/

theorem keep1 (r : Ref sig .tc)
    (h0 : StableHlo.after hostOps0 (W0 m ρ c) (Proc.devRef .tc r) = W0 m ρ c (Proc.devRef .tc r)) :
    W1 m ρ c (Proc.devRef .tc r) = m ((c : Thread nD τ).loc r) := h0

theorem keep2 (r : Ref sig .tc) (n0 : ∀ w, Pipeline.arrRef spec0 w ≠ r)
    (h0 : StableHlo.after hostOps0 (W0 m ρ c) (Proc.devRef .tc r) = W0 m ρ c (Proc.devRef .tc r)) :
    W2 m ρ c (Proc.devRef .tc r) = m ((c : Thread nD τ).loc r) :=
  (W2_of_ne m ρ c r n0).trans (keep1 m ρ c r h0)

theorem keep3 (r : Ref sig .tc) (n0 : ∀ w, Pipeline.arrRef spec0 w ≠ r)
    (h0 : StableHlo.after hostOps0 (W0 m ρ c) (Proc.devRef .tc r) = W0 m ρ c (Proc.devRef .tc r))
    (h1 : StableHlo.after hostOps1 (W2 m ρ c) (Proc.devRef .tc r) = W2 m ρ c (Proc.devRef .tc r)) :
    W3 m ρ c (Proc.devRef .tc r) = m ((c : Thread nD τ).loc r) :=
  h1.trans (keep2 m ρ c r n0 h0)

theorem keep4 (r : Ref sig .tc) (n0 : ∀ w, Pipeline.arrRef spec0 w ≠ r) (n1 : ∀ w, Pipeline.arrRef spec1 w ≠ r)
    (h0 : StableHlo.after hostOps0 (W0 m ρ c) (Proc.devRef .tc r) = W0 m ρ c (Proc.devRef .tc r))
    (h1 : StableHlo.after hostOps1 (W2 m ρ c) (Proc.devRef .tc r) = W2 m ρ c (Proc.devRef .tc r)) :
    W4 m ρ c (Proc.devRef .tc r) = m ((c : Thread nD τ).loc r) :=
  (W4_of_ne m ρ c r n1).trans (keep3 m ρ c r n0 h0 h1)

theorem keep5 (r : Ref sig .tc) (n0 : ∀ w, Pipeline.arrRef spec0 w ≠ r) (n1 : ∀ w, Pipeline.arrRef spec1 w ≠ r)
    (h0 : StableHlo.after hostOps0 (W0 m ρ c) (Proc.devRef .tc r) = W0 m ρ c (Proc.devRef .tc r))
    (h1 : StableHlo.after hostOps1 (W2 m ρ c) (Proc.devRef .tc r) = W2 m ρ c (Proc.devRef .tc r))
    (h2 : StableHlo.after hostOps2 (W4 m ρ c) (Proc.devRef .tc r) = W4 m ρ c (Proc.devRef .tc r)) :
    W5 m ρ c (Proc.devRef .tc r) = m ((c : Thread nD τ).loc r) :=
  h2.trans (keep4 m ρ c r n0 n1 h0 h1)

theorem keep6 (r : Ref sig .tc) (n0 : ∀ w, Pipeline.arrRef spec0 w ≠ r) (n1 : ∀ w, Pipeline.arrRef spec1 w ≠ r)
    (n2 : ∀ w, Pipeline.arrRef spec2 w ≠ r)
    (h0 : StableHlo.after hostOps0 (W0 m ρ c) (Proc.devRef .tc r) = W0 m ρ c (Proc.devRef .tc r))
    (h1 : StableHlo.after hostOps1 (W2 m ρ c) (Proc.devRef .tc r) = W2 m ρ c (Proc.devRef .tc r))
    (h2 : StableHlo.after hostOps2 (W4 m ρ c) (Proc.devRef .tc r) = W4 m ρ c (Proc.devRef .tc r)) :
    W6 m ρ c (Proc.devRef .tc r) = m ((c : Thread nD τ).loc r) :=
  (W6_of_ne m ρ c r n2).trans (keep5 m ρ c r n0 n1 h0 h1 h2)

theorem keep7 (r : Ref sig .tc) (n0 : ∀ w, Pipeline.arrRef spec0 w ≠ r) (n1 : ∀ w, Pipeline.arrRef spec1 w ≠ r)
    (n2 : ∀ w, Pipeline.arrRef spec2 w ≠ r)
    (h0 : StableHlo.after hostOps0 (W0 m ρ c) (Proc.devRef .tc r) = W0 m ρ c (Proc.devRef .tc r))
    (h1 : StableHlo.after hostOps1 (W2 m ρ c) (Proc.devRef .tc r) = W2 m ρ c (Proc.devRef .tc r))
    (h2 : StableHlo.after hostOps2 (W4 m ρ c) (Proc.devRef .tc r) = W4 m ρ c (Proc.devRef .tc r))
    (h3 : StableHlo.after hostOps3 (W6 m ρ c) (Proc.devRef .tc r) = W6 m ρ c (Proc.devRef .tc r)) :
    W7 m ρ c (Proc.devRef .tc r) = m ((c : Thread nD τ).loc r) :=
  h3.trans (keep6 m ρ c r n0 n1 n2 h0 h1 h2)

/-- The launch arrays of core c, as the network's inputs. -/
def launch : Inputs :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20)⟩

/-! ## The first kernel -/

/-- The first layer's residual bias as the first kernel finds it: laid as a row. -/
theorem V1_br : (V1 m ρ c main_call0_v0 : Mat 1 128) = rowOf (m ((c : Thread nD τ).loc main_arg6)) := by
  refine Eq.trans ?_ (row128 (m ((c : Thread nD τ).loc main_arg6)))
  rw [← (show W0 m ρ c (Proc.devRef .tc main_arg6) = m ((c : Thread nD τ).loc main_arg6) from rfl)]
  show StableHlo.after hostOps0 (W0 m ρ c) (Proc.devRef .tc main_call0_v0) = _
  after_results_simp
  rfl

/-- The first layer's projected features, after the first kernel. -/
theorem hw0 : (W2 m ρ c (Proc.devRef .tc main_call0_v1_0) : Mat 50000 128) = (launch m c).hw0 := by
  refine (W2_arr m ρ c 4).trans ((Region0.final_hw (V1 m ρ) c).trans ?_)
  rw [show V1 m ρ c main_arg0 = m ((c : Thread nD τ).loc main_arg0) from keep1 m ρ c main_arg0 (by skip_writes [hostOps0]),
    show V1 m ρ c main_arg3 = m ((c : Thread nD τ).loc main_arg3) from keep1 m ρ c main_arg3 (by skip_writes [hostOps0])]
  rfl

/-- The first layer's residual branch, after the first kernel. -/
theorem res0 : (W2 m ρ c (Proc.devRef .tc main_call0_v1_1) : Mat 50000 128) = (launch m c).res0 := by
  refine (W2_arr m ρ c 5).trans ((Region0.final_res (V1 m ρ) c).trans ?_)
  rw [show V1 m ρ c main_arg0 = m ((c : Thread nD τ).loc main_arg0) from keep1 m ρ c main_arg0 (by skip_writes [hostOps0]),
    show V1 m ρ c main_arg5 = m ((c : Thread nD τ).loc main_arg5) from keep1 m ρ c main_arg5 (by skip_writes [hostOps0]), V1_br m ρ c]
  rfl

/-! ## The first edge step and the second kernel -/

/-- The first layer's aggregate, as the second kernel finds it. -/
theorem agg0 : (V3 m ρ c main_call0_v12 : Mat 50000 128) = (launch m c).agg0 := by
  have e : V3 m ρ c main_call0_v12 = aggOf (W2 m ρ c (Proc.devRef .tc main_call0_v1_0))
      (W2 m ρ c (Proc.devRef .tc main_arg1)) (W2 m ρ c (Proc.devRef .tc main_arg2)) := by
    show StableHlo.after hostOps1 (W2 m ρ c) (Proc.devRef .tc main_call0_v12) = _
    after_results_simp
    simp only [TRef.ofBuf_toBuf]
    rfl
  rw [e, hw0 m ρ c, keep2 m ρ c main_arg1 (by decide) (by skip_writes [hostOps0]), keep2 m ρ c main_arg2 (by decide) (by skip_writes [hostOps0])]
  rfl

/-- The first layer's bias, laid as a row. -/
theorem V3_b : (V3 m ρ c main_call0_v13 : Mat 1 128) = rowOf (m ((c : Thread nD τ).loc main_arg4)) := by
  refine Eq.trans ?_ (row128 (m ((c : Thread nD τ).loc main_arg4)))
  rw [← keep2 m ρ c main_arg4 (by decide) (by skip_writes [hostOps0])]
  show StableHlo.after hostOps1 (W2 m ρ c) (Proc.devRef .tc main_call0_v13) = _
  after_results_simp
  rfl

/-- The first layer's scale, laid as a row. -/
theorem V3_gamma : (V3 m ρ c main_call0_v14 : Mat 1 128) = rowOf (m ((c : Thread nD τ).loc main_arg7)) := by
  refine Eq.trans ?_ (row128 (m ((c : Thread nD τ).loc main_arg7)))
  rw [← keep2 m ρ c main_arg7 (by decide) (by skip_writes [hostOps0])]
  show StableHlo.after hostOps1 (W2 m ρ c) (Proc.devRef .tc main_call0_v14) = _
  after_results_simp
  rfl

/-- The first layer's shift, laid as a row. -/
theorem V3_beta : (V3 m ρ c main_call0_v15 : Mat 1 128) = rowOf (m ((c : Thread nD τ).loc main_arg8)) := by
  refine Eq.trans ?_ (row128 (m ((c : Thread nD τ).loc main_arg8)))
  rw [← keep2 m ρ c main_arg8 (by decide) (by skip_writes [hostOps0])]
  show StableHlo.after hostOps1 (W2 m ρ c) (Proc.devRef .tc main_call0_v15) = _
  after_results_simp
  rfl

/-- The first layer's mean, laid as a row. -/
theorem V3_mean : (V3 m ρ c main_call0_v16 : Mat 1 128) = rowOf (m ((c : Thread nD τ).loc main_arg9)) := by
  refine Eq.trans ?_ (row128 (m ((c : Thread nD τ).loc main_arg9)))
  rw [← keep2 m ρ c main_arg9 (by decide) (by skip_writes [hostOps0])]
  show StableHlo.after hostOps1 (W2 m ρ c) (Proc.devRef .tc main_call0_v16) = _
  after_results_simp
  rfl

/-- The first layer's variance, laid as a row. -/
theorem V3_var : (V3 m ρ c main_call0_v17 : Mat 1 128) = rowOf (m ((c : Thread nD τ).loc main_arg10)) := by
  refine Eq.trans ?_ (row128 (m ((c : Thread nD τ).loc main_arg10)))
  rw [← keep2 m ρ c main_arg10 (by decide) (by skip_writes [hostOps0])]
  show StableHlo.after hostOps1 (W2 m ρ c) (Proc.devRef .tc main_call0_v17) = _
  after_results_simp
  rfl

/-- The first layer's output, after the second kernel. -/
theorem h1 : (W4 m ρ c (Proc.devRef .tc main_call0_v18) : Mat 50000 128) = (launch m c).h1 := by
  refine (W4_arr m ρ c 7).trans ((Region1.final_out (V3 m ρ) c).trans ?_)
  rw [show V3 m ρ c main_call0_v1_1 = W2 m ρ c (Proc.devRef .tc main_call0_v1_1) from by skip_writes [hostOps1],
    res0 m ρ c, agg0 m ρ c, V3_b m ρ c, V3_gamma m ρ c, V3_beta m ρ c, V3_mean m ρ c, V3_var m ρ c]
  rfl

/-! ## The third kernel -/

/-- The second layer's residual bias, laid as a row. -/
theorem V5_br : (V5 m ρ c main_call0_v19 : Mat 1 128) = rowOf (m ((c : Thread nD τ).loc main_arg14)) := by
  refine Eq.trans ?_ (row128 (m ((c : Thread nD τ).loc main_arg14)))
  rw [← keep4 m ρ c main_arg14 (by decide) (by decide) (by skip_writes [hostOps0]) (by skip_writes [hostOps1])]
  show StableHlo.after hostOps2 (W4 m ρ c) (Proc.devRef .tc main_call0_v19) = _
  after_results_simp
  rfl

/-- The second layer's projected features, after the third kernel. -/
theorem hw1 : (W6 m ρ c (Proc.devRef .tc main_call0_v20_0) : Mat 50000 128) = (launch m c).hw1 := by
  refine (W6_arr m ρ c 4).trans ((Region2.final_hw (V5 m ρ) c).trans ?_)
  rw [show V5 m ρ c main_call0_v18 = W4 m ρ c (Proc.devRef .tc main_call0_v18) from by skip_writes [hostOps2], h1 m ρ c,
    show V5 m ρ c main_arg11 = m ((c : Thread nD τ).loc main_arg11) from keep5 m ρ c main_arg11 (by decide) (by decide) (by skip_writes [hostOps0]) (by skip_writes [hostOps1]) (by skip_writes [hostOps2])]
  rfl

/-- The second layer's residual branch, after the third kernel. -/
theorem res1 : (W6 m ρ c (Proc.devRef .tc main_call0_v20_1) : Mat 50000 128) = (launch m c).res1 := by
  refine (W6_arr m ρ c 5).trans ((Region2.final_res (V5 m ρ) c).trans ?_)
  rw [show V5 m ρ c main_call0_v18 = W4 m ρ c (Proc.devRef .tc main_call0_v18) from by skip_writes [hostOps2], h1 m ρ c,
    show V5 m ρ c main_arg13 = m ((c : Thread nD τ).loc main_arg13) from keep5 m ρ c main_arg13 (by decide) (by decide) (by skip_writes [hostOps0]) (by skip_writes [hostOps1]) (by skip_writes [hostOps2]), V5_br m ρ c]
  rfl

/-! ## The second edge step and the fourth kernel -/

/-- The second layer's aggregate, as the fourth kernel finds it. -/
theorem agg1 : (V7 m ρ c main_call0_v31 : Mat 50000 128) = (launch m c).agg1 := by
  have e : V7 m ρ c main_call0_v31 = aggOf (W6 m ρ c (Proc.devRef .tc main_call0_v20_0))
      (W6 m ρ c (Proc.devRef .tc main_arg1)) (W6 m ρ c (Proc.devRef .tc main_arg2)) := by
    show StableHlo.after hostOps3 (W6 m ρ c) (Proc.devRef .tc main_call0_v31) = _
    after_results_simp
    simp only [TRef.ofBuf_toBuf]
    rfl
  rw [e, hw1 m ρ c, keep6 m ρ c main_arg1 (by decide) (by decide) (by decide) (by skip_writes [hostOps0]) (by skip_writes [hostOps1]) (by skip_writes [hostOps2]), keep6 m ρ c main_arg2 (by decide) (by decide) (by decide) (by skip_writes [hostOps0]) (by skip_writes [hostOps1]) (by skip_writes [hostOps2])]
  rfl

/-- The second layer's bias, laid as a row. -/
theorem V7_b : (V7 m ρ c main_call0_v32 : Mat 1 128) = rowOf (m ((c : Thread nD τ).loc main_arg12)) := by
  refine Eq.trans ?_ (row128 (m ((c : Thread nD τ).loc main_arg12)))
  rw [← keep6 m ρ c main_arg12 (by decide) (by decide) (by decide) (by skip_writes [hostOps0]) (by skip_writes [hostOps1]) (by skip_writes [hostOps2])]
  show StableHlo.after hostOps3 (W6 m ρ c) (Proc.devRef .tc main_call0_v32) = _
  after_results_simp
  rfl

/-- The second layer's scale, laid as a row. -/
theorem V7_gamma : (V7 m ρ c main_call0_v33 : Mat 1 128) = rowOf (m ((c : Thread nD τ).loc main_arg15)) := by
  refine Eq.trans ?_ (row128 (m ((c : Thread nD τ).loc main_arg15)))
  rw [← keep6 m ρ c main_arg15 (by decide) (by decide) (by decide) (by skip_writes [hostOps0]) (by skip_writes [hostOps1]) (by skip_writes [hostOps2])]
  show StableHlo.after hostOps3 (W6 m ρ c) (Proc.devRef .tc main_call0_v33) = _
  after_results_simp
  rfl

/-- The second layer's shift, laid as a row. -/
theorem V7_beta : (V7 m ρ c main_call0_v34 : Mat 1 128) = rowOf (m ((c : Thread nD τ).loc main_arg16)) := by
  refine Eq.trans ?_ (row128 (m ((c : Thread nD τ).loc main_arg16)))
  rw [← keep6 m ρ c main_arg16 (by decide) (by decide) (by decide) (by skip_writes [hostOps0]) (by skip_writes [hostOps1]) (by skip_writes [hostOps2])]
  show StableHlo.after hostOps3 (W6 m ρ c) (Proc.devRef .tc main_call0_v34) = _
  after_results_simp
  rfl

/-- The second layer's mean, laid as a row. -/
theorem V7_mean : (V7 m ρ c main_call0_v35 : Mat 1 128) = rowOf (m ((c : Thread nD τ).loc main_arg17)) := by
  refine Eq.trans ?_ (row128 (m ((c : Thread nD τ).loc main_arg17)))
  rw [← keep6 m ρ c main_arg17 (by decide) (by decide) (by decide) (by skip_writes [hostOps0]) (by skip_writes [hostOps1]) (by skip_writes [hostOps2])]
  show StableHlo.after hostOps3 (W6 m ρ c) (Proc.devRef .tc main_call0_v35) = _
  after_results_simp
  rfl

/-- The second layer's variance, laid as a row. -/
theorem V7_var : (V7 m ρ c main_call0_v36 : Mat 1 128) = rowOf (m ((c : Thread nD τ).loc main_arg18)) := by
  refine Eq.trans ?_ (row128 (m ((c : Thread nD τ).loc main_arg18)))
  rw [← keep6 m ρ c main_arg18 (by decide) (by decide) (by decide) (by skip_writes [hostOps0]) (by skip_writes [hostOps1]) (by skip_writes [hostOps2])]
  show StableHlo.after hostOps3 (W6 m ρ c) (Proc.devRef .tc main_call0_v36) = _
  after_results_simp
  rfl

/-- The classifier's bias, laid as a row. -/
theorem V7_bd : (V7 m ρ c main_call0_v37 : Mat 1 2) = rowOf (m ((c : Thread nD τ).loc main_arg20)) := by
  refine Eq.trans ?_ (row2 (m ((c : Thread nD τ).loc main_arg20)))
  rw [← keep6 m ρ c main_arg20 (by decide) (by decide) (by decide) (by skip_writes [hostOps0]) (by skip_writes [hostOps1]) (by skip_writes [hostOps2])]
  show StableHlo.after hostOps3 (W6 m ρ c) (Proc.devRef .tc main_call0_v37) = _
  after_results_simp
  rfl

/-- The program's result: the network's output of the launch arrays. -/
theorem out : (W8 m ρ c (Proc.devRef .tc main_v0) : Mat 50000 2) = (launch m c).out := by
  refine (W8_arr m ρ c 9).trans ((Region3.final_out (V7 m ρ) c).trans ?_)
  rw [show V7 m ρ c main_call0_v20_1 = W6 m ρ c (Proc.devRef .tc main_call0_v20_1) from by skip_writes [hostOps3],
    res1 m ρ c, agg1 m ρ c, V7_b m ρ c, V7_gamma m ρ c, V7_beta m ρ c, V7_mean m ρ c, V7_var m ρ c, V7_bd m ρ c,
    show V7 m ρ c main_arg19 = m ((c : Thread nD τ).loc main_arg19) from keep7 m ρ c main_arg19 (by decide) (by decide) (by decide) (by skip_writes [hostOps0]) (by skip_writes [hostOps1]) (by skip_writes [hostOps2]) (by skip_writes [hostOps3])]
  rfl

end Cert.Gcn.Chain

end
-- ==== Proof.KernelRun.lean ====
/-
  The idealized kernel program's run with its result named.

  Every weakly fair execution of the program on the cores terminates without a fault, and in every final state each
  core's result buffer holds what the chain of buffer contents — launch memory, then host steps and kernels in program
  order — leaves there at the last boundary, while the argument arrays hold what they were launched with.  The run is
  the launch of the program's eight segments (four stretches of host steps, four kernels); the final contents of every
  buffer that is not a kernel's staging buffer are read off the last segment's thread state.
-/
import proofs.«170640_j80590766342785_2_alg».proof.Proof.Gen.KernelIdeal.Frame

set_option maxRecDepth 16384

noncomputable section

namespace Cert.Gcn.KernelRun

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result buffer ends at the last boundary's contents, the arguments end as launched. -/
theorem run : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)

end Cert.Gcn.KernelRun

end
-- ==== Proof.lean ====
/-
  A two-layer graph-convolution network with a softmax classifier, computed by four kernels with host steps between them,
  against the same network written with whole-array operations.

  A layer projects the node features (x · W), sends each node's projected row along the edges and adds what arrives at
  every node, and joins that aggregate with a residual branch: ((max (agg + b) 0 + max (x · Wr + br) 0) - mean) ·
  rsqrt (var + eps) · gamma + beta.  After two layers the classifier's logits h · Wd + bd go through a softmax over
  each node's two classes.

  On the extended reals the two programs compute one function of the arguments, operation for operation: a change of
  float format is the identity, a kernel's matrix product into a zero accumulator and the host's contraction are the
  same finite sum, and every kernel works on blocks of 2000 node rows of arrays whose rows do not interact (products
  with a resident weight, additions of a repeated row, a row softmax), so the 25 blocks it writes are the whole-array
  result.  The edge step (gather the sources' rows, add them into the destinations' rows) is the same host computation
  in both programs, applied to projected features that are equal.  No law of the extended reals beyond this rewriting
  is used, so the precondition is never opened.  The ledger of the idealization is empty.
-/
import proofs.«170640_j80590766342785_2_alg».proof.Defs
import proofs.«170640_j80590766342785_2_alg».proof.Proof.Gen.Kernel
import proofs.«170640_j80590766342785_2_alg».proof.Proof.Gen.Kernel.Skeleton
import proofs.«170640_j80590766342785_2_alg».proof.Proof.Gen.Kernel.Launch
import proofs.«170640_j80590766342785_2_alg».proof.Proof.Gen.Kernel.Points
import proofs.«170640_j80590766342785_2_alg».proof.Proof.Gen.Kernel.Frame
import proofs.«170640_j80590766342785_2_alg».proof.Proof.Gen.KernelIdeal
import proofs.«170640_j80590766342785_2_alg».proof.Proof.Gen.KernelIdeal.Skeleton
import proofs.«170640_j80590766342785_2_alg».proof.Proof.Gen.KernelIdeal.Launch
import proofs.«170640_j80590766342785_2_alg».proof.Proof.Gen.KernelIdeal.Points
import proofs.«170640_j80590766342785_2_alg».proof.Proof.Gen.KernelIdeal.Frame
import proofs.«170640_j80590766342785_2_alg».proof.Proof.Gen.ReferenceIdeal
import proofs.«170640_j80590766342785_2_alg».proof.Proof.Gen.ReferenceIdeal.Run
import proofs.«170640_j80590766342785_2_alg».proof.Proof.Gen.ReferenceIdeal.Read
import proofs.«170640_j80590766342785_2_alg».proof.Proof.Gen.Pre_finite_inputs
import proofs.«170640_j80590766342785_2_alg».proof.Proof.RefStages
import proofs.«170640_j80590766342785_2_alg».proof.Proof.Chain
import proofs.«170640_j80590766342785_2_alg».proof.Proof.KernelRun
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's output of the shared arguments. -/
theorem algebraic : Cert.algebraic_KernelIdeal_ReferenceIdeal := by
  intro m ρ m' ρ' _ hagree
  refine ⟨fun c => (Cert.Gcn.Chain.launch m c).out, ?_, ?_⟩
  · exact (θ_run Cert.KernelIdeal.defs _ _).mono
      (fun r h c => ⟨(h c).1.trans (Cert.Gcn.Chain.out m ρ c), (h c).2⟩) (Cert.Gcn.KernelRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.Read.val_main_v86_eq, e0, e1, e2, e3, e4, e5, e6, e7, e8, e9, e10, e11, e12, e13, e14, e15, e16, e17, e18, e19, e20]
    exact Cert.Gcn.Ref.out_eq (Cert.Gcn.Chain.launch m c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
